-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S16x512 : Shape := ⟨2, ![16, 512]⟩
abbrev S320x512 : Shape := ⟨2, ![320, 512]⟩
abbrev S320 : Shape := ⟨1, ![320]⟩
abbrev S320x320 : Shape := ⟨2, ![320, 320]⟩
abbrev S128x320 : Shape := ⟨2, ![128, 320]⟩
abbrev S128 : Shape := ⟨1, ![128]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S320x512 : S_.BroadcastsInDim S320x512 (![] : Fin 0 → Fin S320x512.rank)
  reducesTo_S320x512_S_d0_1 : S320x512.ReducesTo [0, 1] S_
  bcast_S_S320 : S_.BroadcastsInDim S320 (![] : Fin 0 → Fin S320.rank)
  reducesTo_S320_S_d0 : S320.ReducesTo [0] S_
  bcast_S_S320x320 : S_.BroadcastsInDim S320x320 (![] : Fin 0 → Fin S320x320.rank)
  reducesTo_S320x320_S_d0_1 : S320x320.ReducesTo [0, 1] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S320x320 .f32) (main_arg5 : FVec F S320 .f32) (main_arg6 : FVec F S128x320 .f32) (main_arg7 : FVec F S128 .f32) (main_v13 : IVec S_ 1) (main_v16 : IVec S320 1) : IVec S_ 1 :=
  let main_c_5 : IVec S_ 1 := constantI S_ 1 1#1
  let main_v17 : IVec S_ 1 := (fun x v => Host.reduce IntOp.andi x v reducesTo_S320_S_d0 h_S_) main_v16 main_c_5
  let main_v18 : IVec S_ 1 := andi main_v13 main_v17
  let main_v19 : FVec F S320x320 .f32 := Host.absf main_arg4
  let main_cst_6 : FVec F S_ .f32 := constant S_ .f32 0x7F800000#32
  let main_v20 : FVec F S320x320 .f32 := broadcastInDim S320x320 ![] bcast_S_S320x320 main_cst_6
  let main_v21 : IVec S320x320 1 := cmpf .olt main_v19 main_v20
  let main_c_7 : IVec S_ 1 := constantI S_ 1 1#1
  let main_v22 : IVec S_ 1 := (fun x v => Host.reduce IntOp.andi x v reducesTo_S320x320_S_d0_1 h_S_) main_v21 main_c_7
  let main_v23 : IVec S_ 1 := andi main_v18 main_v22
  let main_v24 : FVec F S320 .f32 := Host.absf main_arg5
  let main_cst_8 : FVec F S_ .f32 := constant S_ .f32 0x7F800000#32
  let main_v25 : FVec F S320 .f32 := broadcastInDim S320 ![] bcast_S_S320 main_cst_8
  let main_v26 : IVec S320 1 := cmpf .olt main_v24 main_v25
  let main_c_9 : IVec S_ 1 := constantI S_ 1 1#1
  let main_v27 : IVec S_ 1 := (fun x v => Host.reduce IntOp.andi x v reducesTo_S320_S_d0 h_S_) main_v26 main_c_9
  let main_v28 : IVec S_ 1 := andi main_v23 main_v27
  let main_v29 : FVec F S128x320 .f32 := Host.absf main_arg6
  let main_cst_10 : FVec F S_ .f32 := constant S_ .f32 0x7F800000#32
  let main_v30 : FVec F S128x320 .f32 := broadcastInDim S128x320 ![] bcast_S_S128x320 main_cst_10
  let main_v31 : IVec S128x320 1 := cmpf .olt main_v29 main_v30
  let main_c_11 : IVec S_ 1 := constantI S_ 1 1#1
  let main_v32 : IVec S_ 1 := (fun x v => Host.reduce IntOp.andi x v reducesTo_S128x320_S_d0_1 h_S_) main_v31 main_c_11
  let main_v33 : IVec S_ 1 := andi main_v28 main_v32
  fn_part2 (F := F) main_arg7 main_v33

def fn {F : FTy → Type} [FloatOps F] (main_arg0 : FVec F S16x64x64x64 .f32) (main_arg1 : FVec F S16x512 .f32) (main_arg2 : FVec F S320x512 .f32) (main_arg3 : FVec F S320 .f32) (main_arg4 : FVec F S320x320 .f32) (main_arg5 : FVec F S320 .f32) (main_arg6 : FVec F S128x320 .f32) (main_arg7 : FVec F S128 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S320x512 .f32 := Host.absf main_arg2
  let main_cst_2 : FVec F S_ .f32 := constant S_ .f32 0x7F800000#32
  let main_v10 : FVec F S320x512 .f32 := broadcastInDim S320x512 ![] bcast_S_S320x512 main_cst_2
  let main_v11 : IVec S320x512 1 := cmpf .olt main_v9 main_v10
  let main_c_3 : IVec S_ 1 := constantI S_ 1 1#1
  let main_v12 : IVec S_ 1 := (fun x v => Host.reduce IntOp.andi x v reducesTo_S320x512_S_d0_1 h_S_) main_v11 main_c_3
  let main_v13 : IVec S_ 1 := andi main_v8 main_v12
  let main_v14 : FVec F S320 .f32 := Host.absf main_arg3
  let main_cst_4 : FVec F S_ .f32 := constant S_ .f32 0x7F800000#32
  let main_v15 : FVec F S320 .f32 := broadcastInDim S320 ![] bcast_S_S320 main_cst_4
  let main_v16 : IVec S320 1 := cmpf .olt main_v14 main_v15
  fn_part1 (F := F) main_arg4 main_arg5 main_arg6 main_arg7 main_v13 main_v16
-- ==== Kernel.lean ====
abbrev S16x64x64x64 : Shape := ⟨4, ![16, 64, 64, 64]⟩
abbrev S16x512 : Shape := ⟨2, ![16, 512]⟩
abbrev S320x512 : Shape := ⟨2, ![320, 512]⟩
abbrev S320 : Shape := ⟨1, ![320]⟩
abbrev S320x320 : Shape := ⟨2, ![320, 320]⟩
abbrev S128x320 : Shape := ⟨2, ![128, 320]⟩
abbrev S128 : Shape := ⟨1, ![128]⟩
abbrev S1024x4096 : Shape := ⟨2, ![1024, 4096]⟩
abbrev S1x320 : Shape := ⟨2, ![1, 320]⟩
abbrev S1x128 : Shape := ⟨2, ![1, 128]⟩
abbrev S16x128 : Shape := ⟨2, ![16, 128]⟩
abbrev S16x320 : Shape := ⟨2, ![16, 320]⟩
abbrev S16x64 : Shape := ⟨2, ![16, 64]⟩
abbrev S2048x1 : Shape := ⟨2, ![2048, 1]⟩
abbrev S128x1 : Shape := ⟨2, ![128, 1]⟩
abbrev S64x4096 : Shape := ⟨2, ![64, 4096]⟩
abbrev S64x1 : Shape := ⟨2, ![64, 1]⟩

abbrev nBuf : Space → Nat
  | .hbm => 16
  | .vmem => 14
  | .smem => 0
  | _ => 0

abbrev bufTy : (tb : Table) → Fin (tcTables nBuf tb) → BufTy
  | .hbm, ⟨0, _⟩ => ⟨S16x64x64x64, .f32⟩
  | .hbm, ⟨1, _⟩ => ⟨S16x512, .f32⟩
  | .hbm, ⟨2, _⟩ => ⟨S320x512, .f32⟩
  | .hbm, ⟨3, _⟩ => ⟨S320, .f32⟩
  | .hbm, ⟨4, _⟩ => ⟨S320x320, .f32⟩
  | .hbm, ⟨5, _⟩ => ⟨S320, .f32⟩
  | .hbm, ⟨6, _⟩ => ⟨S128x320, .f32⟩
  | .hbm, ⟨7, _⟩ => ⟨S128, .f32⟩
  | .hbm, ⟨8, _⟩ => ⟨S1024x4096, .f32⟩
  | .hbm, ⟨9, _⟩ => ⟨S1x320, .f32⟩
  | .hbm, ⟨10, _⟩ => ⟨S1x320, .f32⟩
  | .hbm, ⟨11, _⟩ => ⟨S1x128, .f32⟩
  | .hbm, ⟨12, _⟩ => ⟨S16x128, .f32⟩
  | .hbm, ⟨13, _⟩ => ⟨S2048x1, .f32⟩
  | .hbm, ⟨14, _⟩ => ⟨S1024x4096, .f32⟩
  | .hbm, ⟨15, _⟩ => ⟨S16x64x64x64, .f32⟩
  | .local _ .vmem, ⟨0, _⟩ => ⟨S16x512, .f32⟩
  | .local _ .vmem, ⟨1, _⟩ => ⟨S320x512, .f32⟩
  | .local _ .vmem, ⟨2, _⟩ => ⟨S1x320, .f32⟩
  | .local _ .vmem, ⟨3, _⟩ => ⟨S320x320, .f32⟩
  | .local _ .vmem, ⟨4, _⟩ => ⟨S1x320, .f32⟩
  | .local _ .vmem, ⟨5, _⟩ => ⟨S128x320, .f32⟩
  | .local _ .vmem, ⟨6, _⟩ => ⟨S1x128, .f32⟩
  | .local _ .vmem, ⟨7, _⟩ => ⟨S16x128, .f32⟩
  | .local _ .vmem, ⟨8, _⟩ => ⟨S128x1, .f32⟩
  | .local _ .vmem, ⟨9, _⟩ => ⟨S128x1, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S16x64x64x64_S1024x4096 : S16x64x64x64.ShapeCasts S1024x4096
  shapeCasts_S320_S1x320 : S320.ShapeCasts S1x320
  shapeCasts_S128_S1x128 : S128.ShapeCasts S1x128
  inb_S16x512_S16x512_0_0 : ∀ a, (![0, 0] : Fin 2 → Nat) a + S16x512.size a ≤ S16x512.size a
  h_S16x512 : 0 < S16x512.numel
  inb_S320x512_S320x512_0_0 : ∀ a, (![0, 0] : Fin 2 → Nat) a + S320x512.size a ≤ S320x512.size a
  h_S320x512 : 0 < S320x512.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S16x320 : S1x320.Broadcasts S16x320
  inb_S320x320_S320x320_0_0 : ∀ a, (![0, 0] : Fin 2 → Nat) a + S320x320.size a ≤ S320x320.size a
  h_S320x320 : 0 < S320x320.numel
  inb_S128x320_S128x320_0_0 : ∀ a, (![0, 0] : Fin 2 → Nat) a + S128x320.size a ≤ S128x320.size a
  h_S128x320 : 0 < S128x320.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  inb_S16x128_S16x64_0_0 : ∀ a, (![0, 0] : Fin 2 → Nat) a + S16x64.size a ≤ S16x128.size a
  h_S16x64 : 0 < S16x64.numel
  shapeCasts_S16x64_S16x64 : S16x64.ShapeCasts S16x64
  shapeCasts_S16x128_S2048x1 : S16x128.ShapeCasts S2048x1
  inb_S128x1_S64x1_0_0 : ∀ a, (![0, 0] : Fin 2 → Nat) a + S64x1.size a ≤ S128x1.size a
  h_S64x1 : 0 < S64x1.numel
  shapeCasts_S64x1_S64x1 : S64x1.ShapeCasts S64x1
  inb_S128x1_S64x1_64_0 : ∀ a, (![64, 0] : Fin 2 → Nat) a + S64x1.size a ≤ S128x1.size a
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  broadcasts_S64x1_S64x4096 : S64x1.Broadcasts S64x4096
  shapeCasts_S1024x4096_S16x64x64x64 : S1024x4096.ShapeCasts S16x64x64x64
  dot_S16x512_S320x512_S16x320_1_1_0_0_n_n_wf : DotDims.WF S16x512 S320x512 S16x320 [1] [1] [0] [0] [] []
  dot_S16x320_S320x320_S16x320_1_1_0_0_n_n_wf : DotDims.WF S16x320 S320x320 S16x320 [1] [1] [0] [0] [] []
  dot_S16x320_S128x320_S16x128_1_1_0_0_n_n_wf : DotDims.WF S16x320 S128x320 S16x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S16x512.size a
  hwx0_0 : ∀ i : grid0.Coords, EltTy.bits .f32 = 32 ∨ (Rect.block (s := S16x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x512.size a ≤ S320x512.size a
  hwx0_1 : ∀ i : grid0.Coords, EltTy.bits .f32 = 32 ∨ (Rect.block (s := S320x512) S320x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x320.size a ≤ S1x320.size a
  hwx0_2 : ∀ i : grid0.Coords, EltTy.bits .f32 = 32 ∨ (Rect.block (s := S1x320) S1x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x320.size a ≤ S320x320.size a
  hwx0_3 : ∀ i : grid0.Coords, EltTy.bits .f32 = 32 ∨ (Rect.block (s := S320x320) S320x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x320.size a ≤ S128x320.size a
  hwx0_5 : ∀ i : grid0.Coords, EltTy.bits .f32 = 32 ∨ (Rect.block (s := S128x320) S128x320.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .f32 = 32 ∨ (Rect.block (s := S16x128) S16x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S2048x1.size a
  hwx1_0 : ∀ i : grid1.Coords, EltTy.bits .f32 = 32 ∨ (Rect.block (s := S2048x1) S128x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S1024x4096.size a
  hwx1_1 : ∀ i : grid1.Coords, EltTy.bits .f32 = 32 ∨ (Rect.block (s := S1024x4096) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S1024x4096.size a
  hwx1_2 : ∀ i : grid1.Coords, EltTy.bits .f32 = 32 ∨ (Rect.block (s := S1024x4096) S64x4096.size (cc1_transform_2 i) (hinb1_2 i)).WholeWords (EltTy.packing .f32)

variable [Facts₀]

def dot_S16x512_S320x512_S16x320_1_1_0_0_n_n : DotDims S16x512 S320x512 S16x320 where
  lhsContracting := [1]
  rhsContracting := [1]
  lhsNonContracting := [0]
  rhsNonContracting := [0]
  lhsBatch := []
  rhsBatch := []
  wf := dot_S16x512_S320x512_S16x320_1_1_0_0_n_n_wf
def dot_S16x320_S320x320_S16x320_1_1_0_0_n_n : DotDims S16x320 S320x320 S16x320 where
  lhsContracting := [1]
  rhsContracting := [1]
  lhsNonContracting := [0]
  rhsNonContracting := [0]
  lhsBatch := []
  rhsBatch := []
  wf := dot_S16x320_S320x320_S16x320_1_1_0_0_n_n_wf
def dot_S16x320_S128x320_S16x128_1_1_0_0_n_n : DotDims S16x320 S128x320 S16x128 where
  lhsContracting := [1]
  rhsContracting := [1]
  lhsNonContracting := [0]
  rhsNonContracting := [0]
  lhsBatch := []
  rhsBatch := []
  wf := dot_S16x320_S128x320_S16x128_1_1_0_0_n_n_wf

abbrev win0_0 : Pipeline.Window sig grid0 :=
  Pipeline.Window.ofSpec (Memref.whole main_arg1) S16x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S320x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S320x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x320.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S16x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x64x64 : Shape := ⟨4, ![16, 64, 64, 64]⟩
abbrev S16x512 : Shape := ⟨2, ![16, 512]⟩
abbrev S320x512 : Shape := ⟨2, ![320, 512]⟩
abbrev S320 : Shape := ⟨1, ![320]⟩
abbrev S320x320 : Shape := ⟨2, ![320, 320]⟩
abbrev S128x320 : Shape := ⟨2, ![128, 320]⟩
abbrev S128 : Shape := ⟨1, ![128]⟩
abbrev S1024x4096 : Shape := ⟨2, ![1024, 4096]⟩
abbrev S512x16 : Shape := ⟨2, ![512, 16]⟩
abbrev S320x1 : Shape := ⟨2, ![320, 1]⟩
abbrev S64 : Shape := ⟨1, ![64]⟩
abbrev S_ : Shape := ⟨0, ![]⟩
abbrev S128x1 : Shape := ⟨2, ![128, 1]⟩
abbrev S128x16 : Shape := ⟨2, ![128, 16]⟩
abbrev S320x16 : Shape := ⟨2, ![320, 16]⟩
abbrev S64x16 : Shape := ⟨2, ![64, 16]⟩
abbrev S16x64 : Shape := ⟨2, ![16, 64]⟩
abbrev S1024x1 : Shape := ⟨2, ![1024, 1]⟩
abbrev S1024x1280 : Shape := ⟨2, ![1024, 1280]⟩

abbrev nBuf : Space → Nat
  | .hbm => 28
  | .vmem => 14
  | .smem => 0
  | _ => 0

abbrev bufTy : (tb : Table) → Fin (tcTables nBuf tb) → BufTy
  | .hbm, ⟨0, _⟩ => ⟨S16x64x64x64, .f32⟩
  | .hbm, ⟨1, _⟩ => ⟨S16x512, .f32⟩
  | .hbm, ⟨2, _⟩ => ⟨S320x512, .f32⟩
  | .hbm, ⟨3, _⟩ => ⟨S320, .f32⟩
  | .hbm, ⟨4, _⟩ => ⟨S320x320, .f32⟩
  | .hbm, ⟨5, _⟩ => ⟨S320, .f32⟩
  | .hbm, ⟨6, _⟩ => ⟨S128x320, .f32⟩
  | .hbm, ⟨7, _⟩ => ⟨S128, .f32⟩
  | .hbm, ⟨8, _⟩ => ⟨S1024x4096, .f32⟩
  | .hbm, ⟨9, _⟩ => ⟨S512x16, .f32⟩
  | .hbm, ⟨10, _⟩ => ⟨S320x1, .f32⟩
  | .hbm, ⟨11, _⟩ => ⟨S320x1, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S128, .f32⟩
  | .hbm, ⟨18, _⟩ => ⟨S128x1, .f32⟩
  | .hbm, ⟨19, _⟩ => ⟨S128x16, .f32⟩
  | .hbm, ⟨20, _⟩ => ⟨S64x16, .f32⟩
  | .hbm, ⟨21, _⟩ => ⟨S16x64, .f32⟩
  | .hbm, ⟨22, _⟩ => ⟨S1024x1, .f32⟩
  | .hbm, ⟨23, _⟩ => ⟨S64x16, .f32⟩
  | .hbm, ⟨24, _⟩ => ⟨S16x64, .f32⟩
  | .hbm, ⟨25, _⟩ => ⟨S1024x1, .f32⟩
  | .hbm, ⟨26, _⟩ => ⟨S1024x4096, .f32⟩
  | .hbm, ⟨27, _⟩ => ⟨S16x64x64x64, .f32⟩
  | .local _ .vmem, ⟨0, _⟩ => ⟨S512x16, .f32⟩
  | .local _ .vmem, ⟨1, _⟩ => ⟨S320x512, .f32⟩
  | .local _ .vmem, ⟨2, _⟩ => ⟨S320x1, .f32⟩
  | .local _ .vmem, ⟨3, _⟩ => ⟨S320x320, .f32⟩
  | .local _ .vmem, ⟨4, _⟩ => ⟨S320x1, .f32⟩
  | .local _ .vmem, ⟨5, _⟩ => ⟨S128x320, .f32⟩
  | .local _ .vmem, ⟨6, _⟩ => ⟨S128x1, .f32⟩
  | .local _ .vmem, ⟨7, _⟩ => ⟨S128x16, .f32⟩
  | .local _ .vmem, ⟨8, _⟩ => ⟨S1024x1, .f32⟩
  | .local _ .vmem, ⟨9, _⟩ => ⟨S1024x1, .f32⟩
  | .local _ .vmem, ⟨10, _⟩ => ⟨S1024x1280, .f32⟩
  | .local _ .vmem, ⟨11, _⟩ => ⟨S1024x1280, .f32⟩
  | .local _ .vmem, ⟨12, _⟩ => ⟨S1024x1280, .f32⟩
  | .local _ .vmem, ⟨13, _⟩ => ⟨S1024x1280, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16x64x64x64_S1024x4096 : S16x64x64x64.ShapeCasts S1024x4096
  transposes_S16x512_S512x16_1_0 : S16x512.Transposes [1, 0] S512x16
  shapeCasts_S320_S320x1 : S320.ShapeCasts S320x1
  slices_S128_S64_0 : S128.Slices ![0] S64
  bcast_S_S64 : S_.BroadcastsInDim S64 (![] : Fin 0 → Fin S64.rank)
  slices_S128_S64_64 : S128.Slices ![64] S64
  concatenates_S64_S64_S128_d0 : Shape.Concatenates [S64, S64] S128 0
  shapeCasts_S128_S128x1 : S128.ShapeCasts S128x1
  inb_S320x512_S320x512_0_0 : ∀ a, (![0, 0] : Fin 2 → Nat) a + S320x512.size a ≤ S320x512.size a
  h_S320x512 : 0 < S320x512.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S320x1_S320x1_0_0 : ∀ a, (![0, 0] : Fin 2 → Nat) a + S320x1.size a ≤ S320x1.size a
  h_S320x1 : 0 < S320x1.numel
  shapeCasts_S320x1_S320x1 : S320x1.ShapeCasts S320x1
  broadcasts_S320x1_S320x16 : S320x1.Broadcasts S320x16
  inb_S320x320_S320x320_0_0 : ∀ a, (![0, 0] : Fin 2 → Nat) a + S320x320.size a ≤ S320x320.size a
  h_S320x320 : 0 < S320x320.numel
  inb_S128x320_S128x320_0_0 : ∀ a, (![0, 0] : Fin 2 → Nat) a + S128x320.size a ≤ S128x320.size a
  h_S128x320 : 0 < S128x320.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16 : S128x1.Broadcasts S128x16
  inb_S128x16_S128x16_0_0 : ∀ a, (![0, 0] : Fin 2 → Nat) a + S128x16.size a ≤ S128x16.size a
  h_S128x16 : 0 < S128x16.numel
  slices_S128x16_S64x16_0_0 : S128x16.Slices ![0, 0] S64x16
  transposes_S64x16_S16x64_1_0 : S64x16.Transposes [1, 0] S16x64
  shapeCasts_S16x64_S1024x1 : S16x64.ShapeCasts S1024x1
  slices_S128x16_S64x16_64_0 : S128x16.Slices ![64, 0] S64x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  broadcasts_S1024x1_S1024x1280 : S1024x1.Broadcasts S1024x1280
  shapeCasts_S1024x4096_S16x64x64x64 : S1024x4096.ShapeCasts S16x64x64x64
  dot_S320x512_S512x16_S320x16_1_0_0_1_n_n_wf : DotDims.WF S320x512 S512x16 S320x16 [1] [0] [0] [1] [] []
  dot_S320x320_S320x16_S320x16_1_0_0_1_n_n_wf : DotDims.WF S320x320 S320x16 S320x16 [1] [0] [0] [1] [] []
  dot_S128x320_S320x16_S128x16_1_0_0_1_n_n_wf : DotDims.WF S128x320 S320x16 S128x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S512x16.size a
  hwx0_0 : ∀ i : grid0.Coords, EltTy.bits .f32 = 32 ∨ (Rect.block (s := S512x16) S512x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x512.size a ≤ S320x512.size a
  hwx0_1 : ∀ i : grid0.Coords, EltTy.bits .f32 = 32 ∨ (Rect.block (s := S320x512) S320x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x1.size a ≤ S320x1.size a
  hwx0_2 : ∀ i : grid0.Coords, EltTy.bits .f32 = 32 ∨ (Rect.block (s := S320x1) S320x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x320.size a ≤ S320x320.size a
  hwx0_3 : ∀ i : grid0.Coords, EltTy.bits .f32 = 32 ∨ (Rect.block (s := S320x320) S320x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x1.size a ≤ S320x1.size a
  hwx0_4 : ∀ i : grid0.Coords, EltTy.bits .f32 = 32 ∨ (Rect.block (s := S320x1) S320x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x320.size a ≤ S128x320.size a
  hwx0_5 : ∀ i : grid0.Coords, EltTy.bits .f32 = 32 ∨ (Rect.block (s := S128x320) S128x320.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x16.size a ≤ S128x16.size a
  hwx0_7 : ∀ i : grid0.Coords, EltTy.bits .f32 = 32 ∨ (Rect.block (s := S128x16) S128x16.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S1024x1.size a
  hwx1_0 : ∀ i : grid1.Coords, EltTy.bits .f32 = 32 ∨ (Rect.block (s := S1024x1) S1024x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S1024x1.size a
  hwx1_1 : ∀ i : grid1.Coords, EltTy.bits .f32 = 32 ∨ (Rect.block (s := S1024x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x1280.size a < S1024x4096.size a
  hwx1_2 : ∀ i : grid1.Coords, EltTy.bits .f32 = 32 ∨ (Rect.unit (s := S1024x4096) (fun a => cc1_transform_2 i a * S1024x1280.size a) (fun a => (Pipeline.Clip.of (cc1_transform_2 i a) (S1024x1280.size a) (S1024x4096.size a)).extent (S1024x1280.size a)) fun a => Pipeline.Clip.inb (Pipeline.Clip.ok_of (hstart1_2 i a))).WholeWords (EltTy.packing .f32)
  hwxs1_2 : ∀ i : grid1.Coords, EltTy.bits .f32 = 32 ∨ (Rect.unit (s := S1024x1280) (fun _ => 0) (fun a => (Pipeline.Clip.of (cc1_transform_2 i a) (S1024x1280.size a) (S1024x4096.size a)).extent (S1024x1280.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1280.size a < S1024x4096.size a
  hwx1_3 : ∀ i : grid1.Coords, EltTy.bits .f32 = 32 ∨ (Rect.unit (s := S1024x4096) (fun a => cc1_transform_3 i a * S1024x1280.size a) (fun a => (Pipeline.Clip.of (cc1_transform_3 i a) (S1024x1280.size a) (S1024x4096.size a)).extent (S1024x1280.size a)) fun a => Pipeline.Clip.inb (Pipeline.Clip.ok_of (hstart1_3 i a))).WholeWords (EltTy.packing .f32)
  hwxs1_3 : ∀ i : grid1.Coords, EltTy.bits .f32 = 32 ∨ (Rect.unit (s := S1024x1280) (fun _ => 0) (fun a => (Pipeline.Clip.of (cc1_transform_3 i a) (S1024x1280.size a) (S1024x4096.size a)).extent (S1024x1280.size a)) fun a => (Nat.zero_add _).trans_le (Pipeline.Clip.extent_le (Pipeline.Clip.ok_of (hstart1_3 i a)))).WholeWords (EltTy.packing .f32)

variable [Facts₀]

def dot_S320x512_S512x16_S320x16_1_0_0_1_n_n : DotDims S320x512 S512x16 S320x16 where
  lhsContracting := [1]
  rhsContracting := [0]
  lhsNonContracting := [0]
  rhsNonContracting := [1]
  lhsBatch := []
  rhsBatch := []
  wf := dot_S320x512_S512x16_S320x16_1_0_0_1_n_n_wf
def dot_S320x320_S320x16_S320x16_1_0_0_1_n_n : DotDims S320x320 S320x16 S320x16 where
  lhsContracting := [1]
  rhsContracting := [0]
  lhsNonContracting := [0]
  rhsNonContracting := [1]
  lhsBatch := []
  rhsBatch := []
  wf := dot_S320x320_S320x16_S320x16_1_0_0_1_n_n_wf
def dot_S128x320_S320x16_S128x16_1_0_0_1_n_n : DotDims S128x320 S320x16 S128x16 where
  lhsContracting := [1]
  rhsContracting := [0]
  lhsNonContracting := [0]
  rhsNonContracting := [1]
  lhsBatch := []
  rhsBatch := []
  wf := dot_S128x320_S320x16_S128x16_1_0_0_1_n_n_wf

abbrev win0_0 : Pipeline.Window sig grid0 :=
  Pipeline.Window.ofSpec (Memref.whole main_v1) S512x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S320x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S320x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S320x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S320x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x320.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x16.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S1024x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v0) S1024x1280.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v17) S1024x1280.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KerRunW5.lean ====
/-
  The kernel program's run, with its result buffer named.

  The generated frame ends at a thread state in which every unscoped buffer holds the last boundary's contents; its
  stated post keeps only the argument arrays. Here the same run is stated with one more buffer kept: the result.
-/
import proofs.«141238_g2000705577981603_pallasbulk_1167_2_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main on the TensorCores from any memory with zero counters: it terminates, nothing faulting, and in every
    final state the result buffer holds the last boundary's contents and the argument arrays are as launched. -/
theorem run_w5 : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.KerValue

end
-- ==== Proof.Spec.lean ====
/-
  The mathematics both programs compute, stated once over the extended reals.

  A three-layer perceptron maps each of the 16 rows of the embedding `d` (512 entries) to 128 numbers: two hidden
  layers of 320 units, each a weighted sum plus a bias followed by the maximum with zero, then a linear layer of
  128 units. The first 64 outputs, plus one, are the scales of the 64 channels of that batch entry, the last 64 the
  shifts; the result is `scale · x + shift`, channel by channel, at every one of the 64 × 64 positions.

  A weighted sum is written with the weight on the left of each product; a program that multiplies the other way
  round computes the same sum because multiplication of extended reals commutes (`dense_comm`). The "plus one" may
  be added to the bias before the sum is added or to the finished sum: addition of extended reals is associative
  (`dense_add_one`). Neither law needs the inputs to be finite.
-/
import Idealize.ShloMosaic.PureOps.Ideal
import Idealize.ShloMosaic.Lib.ValueIdx

noncomputable section

open scoped BigOperators

namespace Cert.Modulate

open Idealize.ShloMosaic Idealize.ShloMosaic.ValueIdx

/-- The float zero both programs clamp against. -/
abbrev zeroF : EReal := Ideal.ofBits .f32 0x00000000#32
/-- The float one added to the scale half. -/
abbrev oneF : EReal := Ideal.ofBits .f32 0x3F800000#32

/-- A unit of a dense layer: the weights against the inputs, plus the bias. -/
def dense {K : ℕ} (w h : Fin K → EReal) (b : EReal) : EReal := (∑ k, w k * h k) + b

/-- The products may be taken in the other order. -/
theorem dense_comm {K : ℕ} (w h : Fin K → EReal) (b : EReal) : (∑ k, h k * w k) + b = dense w h b := by
  unfold dense; exact congrArg (· + b) (Finset.sum_congr rfl fun k _ => mul_comm _ _)

/-- One more summand may join the bias first or the finished unit last. -/
theorem dense_add_one {K : ℕ} (w h : Fin K → EReal) (b o : EReal) : dense w h b + o = dense w h (b + o) := by
  unfold dense; exact add_assoc _ _ _

/-- The clamp at zero. -/
def relu (x : EReal) : EReal := max x zeroF

section

variable (D : (⟨2, ![16, 512]⟩ : Shape).Idx → EReal) (W1 : (⟨2, ![320, 512]⟩ : Shape).Idx → EReal)
  (B1 : (⟨1, ![320]⟩ : Shape).Idx → EReal) (W2 : (⟨2, ![320, 320]⟩ : Shape).Idx → EReal)
  (B2 : (⟨1, ![320]⟩ : Shape).Idx → EReal) (W3 : (⟨2, ![128, 320]⟩ : Shape).Idx → EReal)
  (B3 : (⟨1, ![128]⟩ : Shape).Idx → EReal)

/-- First hidden layer: unit `j` for batch entry `n`. -/
def hid1 (n : Fin 16) (j : Fin 320) : EReal :=
  relu (dense (fun k : Fin 512 => W1 (ix2 j k)) (fun k => D (ix2 n k)) (B1 (ix1 j)))

/-- Second hidden layer. -/
def hid2 (n : Fin 16) (j : Fin 320) : EReal :=
  relu (dense (fun k : Fin 320 => W2 (ix2 j k)) (fun k => hid1 D W1 B1 n k) (B2 (ix1 j)))

/-- The linear output layer before the "plus one": unit `j` of 128 for batch entry `n`. -/
def lin3 (n : Fin 16) (j : Fin 128) : EReal :=
  dense (fun k : Fin 320 => W3 (ix2 j k)) (fun k => hid2 D W1 B1 W2 B2 n k) (B3 (ix1 j))

/-- What modulates channel `c` of batch entry `n`: output unit `j` of 128, the first 64 of them raised by one
    (units 0‥63 are the scales of channels 0‥63, units 64‥127 the shifts). -/
def gb (n : Fin 16) (j : Fin 128) : EReal :=
  if j.val < 64 then lin3 D W1 B1 W2 B2 W3 B3 n j + oneF else lin3 D W1 B1 W2 B2 W3 B3 n j

variable (X : (⟨4, ![16, 64, 64, 64]⟩ : Shape).Idx → EReal)

/-- The result at batch entry `n`, channel `c`, position `(p, q)`: the entry scaled and shifted. -/
def out (n : Fin 16) (c : Fin 64) (p q : Fin 64) : EReal :=
  gb D W1 B1 W2 B2 W3 B3 n ⟨c.val, by omega⟩ * X (ix4 n c p q) + gb D W1 B1 W2 B2 W3 B3 n ⟨c.val + 64, by omega⟩

end

/-! ## The perceptron as each program's kernel computes it

The same three layers over inputs laid out as a kernel finds them: with the embedding transposed and the biases as
columns (`mlpCol`: unit `j`, batch entry `n`), or with the embedding as given and the biases as rows (`mlpRow`). -/

/-- Column layout: embedding `[512, 16]`, biases `[N, 1]`; the value of output unit `j` for batch entry `n`. -/
def mlpCol (DT : (⟨2, ![512, 16]⟩ : Shape).Idx → EReal) (W1 : (⟨2, ![320, 512]⟩ : Shape).Idx → EReal)
    (B1 : (⟨2, ![320, 1]⟩ : Shape).Idx → EReal) (W2 : (⟨2, ![320, 320]⟩ : Shape).Idx → EReal)
    (B2 : (⟨2, ![320, 1]⟩ : Shape).Idx → EReal) (W3 : (⟨2, ![128, 320]⟩ : Shape).Idx → EReal)
    (B3 : (⟨2, ![128, 1]⟩ : Shape).Idx → EReal) (j : Fin 128) (n : Fin 16) : EReal :=
  dense (fun k : Fin 320 => W3 (ix2 j k))
    (fun k => relu (dense (fun k' : Fin 320 => W2 (ix2 k k'))
      (fun k' => relu (dense (fun k'' : Fin 512 => W1 (ix2 k' k'')) (fun k'' => DT (ix2 k'' n)) (B1 (ix2 k' 0))))
      (B2 (ix2 k 0))))
    (B3 (ix2 j 0))

/-- Row layout: embedding `[16, 512]`, biases `[1, N]`; the value of output unit `j` for batch entry `n`, before
    anything is added to it. -/
def mlpRow (D : (⟨2, ![16, 512]⟩ : Shape).Idx → EReal) (W1 : (⟨2, ![320, 512]⟩ : Shape).Idx → EReal)
    (B1 : (⟨2, ![1, 320]⟩ : Shape).Idx → EReal) (W2 : (⟨2, ![320, 320]⟩ : Shape).Idx → EReal)
    (B2 : (⟨2, ![1, 320]⟩ : Shape).Idx → EReal) (W3 : (⟨2, ![128, 320]⟩ : Shape).Idx → EReal)
    (B3 : (⟨2, ![1, 128]⟩ : Shape).Idx → EReal) (n : Fin 16) (j : Fin 128) : EReal :=
  dense (fun k : Fin 320 => W3 (ix2 j k))
    (fun k => relu (dense (fun k' : Fin 320 => W2 (ix2 k k'))
      (fun k' => relu (dense (fun k'' : Fin 512 => W1 (ix2 k' k'')) (fun k'' => D (ix2 n k'')) (B1 (ix2 0 k'))))
      (B2 (ix2 0 k))))
    (B3 (ix2 0 j))

end Cert.Modulate

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.KerPay.lean ====
/-
  The three payloads of the kernel program, read at an index over the extended reals.

  The first kernel's large payload is the three-layer perceptron in the row layout: each layer a product over the last
  axes of its input and its weights plus a bias row, the first two clamped at zero. Its small payload adds the float one.
  The second kernel's payload multiplies each row of its block by that row's scale and adds that row's shift.
-/
import proofs.«141238_g2000705577981603_pallasbulk_1167_2_alg».proof.Proof.Gen.KernelIdeal.Skeleton
import proofs.«141238_g2000705577981603_pallasbulk_1167_2_alg».proof.Proof.Spec
import proofs.«141238_g2000705577981603_pallasbulk_1167_2_alg».proof.Proof.LibDotLastAxes

noncomputable section

open scoped BigOperators

namespace Cert.KernelIdeal.KerValue

open Idealize.ShloMosaic Idealize.ShloMosaic.ValueIdx Idealize.ShloMosaic.DotLastAxes
open Cert.KernelIdeal Cert.KernelIdeal.Gen Cert.Modulate

/-- One dense layer as the kernel computes it — the product over the last axes into the zero splat, plus the bias row
    broadcast down the rows — is, at row `n` and unit `j`, the specification's dense unit. -/
theorem layer_apply {M K N : Nat}
    (w : DotDims.WF (⟨2, ![M, K]⟩ : Shape) (⟨2, ![N, K]⟩ : Shape) (⟨2, ![M, N]⟩ : Shape) [1] [1] [0] [0] [] [])
    (hc : (⟨2, ![1, N]⟩ : Shape).ShapeCasts ⟨2, ![1, N]⟩) (hb : (⟨2, ![1, N]⟩ : Shape).Broadcasts ⟨2, ![M, N]⟩)
    (h : FVec Ideal ⟨2, ![M, K]⟩ .f32) (W : FVec Ideal ⟨2, ![N, K]⟩ .f32) (b : FVec Ideal ⟨2, ![1, N]⟩ .f32)
    (n : Fin M) (j : Fin N) :
    addf (matmul (⟨[1], [1], [0], [0], [], [], w⟩ : DotDims _ _ _) none h W (constant (F := Ideal) ⟨2, ![M, N]⟩ .f32 0x00000000#32))
        (broadcastTo ⟨2, ![M, N]⟩ (shapeCast ⟨2, ![1, N]⟩ b hc) hb) (ix2 n j)
      = dense (fun k : Fin K => W (ix2 j k)) (fun k => h (ix2 n k)) (b (ix2 0 j)) := by
  rw [addf_apply, matmul_zero_apply, rowBroadcast_apply]
  exact dense_comm _ _ _

/-- The clamp at zero as the kernel computes it. -/
theorem clamp_apply {s : Shape} (x : FVec Ideal s .f32) (i : s.Idx) :
    maximumf x (broadcast s (Scalar.ofBits (F := Ideal) .f32 0x00000000#32)) i = relu (x i) := rfl

/-- The perceptron payload at batch entry `n` and output unit `j`. -/
theorem pay1_apply (v0 : Vec Ideal S16x512 .f32) (v1 : Vec Ideal S320x512 .f32) (v3 : Vec Ideal S1x320 .f32)
    (v9 : Vec Ideal S320x320 .f32) (v11 : Vec Ideal S1x320 .f32) (v17 : Vec Ideal S128x320 .f32) (v19 : Vec Ideal S1x128 .f32)
    (n : Fin 16) (j : Fin 128) :
    k0_pay1 (F := Ideal) v0 v1 v3 v9 v11 v17 v19 (ix2 n j) = mlpRow v0 v1 v3 v9 v11 v17 v19 n j := by
  unfold k0_pay1 mlpRow
  refine (layer_apply (M := 16) (K := 320) (N := 128) _ _ _ _ v17 v19 n j).trans ?_
  refine congrArg (fun f => dense (fun k : Fin 320 => v17 (ix2 j k)) f (v19 (ix2 0 j))) (funext fun k => ?_)
  refine (clamp_apply _ (ix2 n k)).trans (congrArg relu ?_)
  refine (layer_apply (M := 16) (K := 320) (N := 320) _ _ _ _ v9 v11 n k).trans ?_
  refine congrArg (fun f => dense (fun k' : Fin 320 => v9 (ix2 k k')) f (v11 (ix2 0 k))) (funext fun k' => ?_)
  refine (clamp_apply _ (ix2 n k')).trans (congrArg relu ?_)
  exact layer_apply (M := 16) (K := 512) (N := 320) _ _ _ v0 v1 v3 n k'

/-- The small payload: the float one added to every entry. -/
theorem pay2_apply (v24 : Vec Ideal S16x64 .f32) (i : S16x64.Idx) :
    k0_pay2 (F := Ideal) v24 i = v24 i + oneF := by
  unfold k0_pay2
  rw [addf_apply, shapeCast_self]
  rfl

/-- A [R, 1] column cast to its own shape and broadcast along C columns reads, at row `r`, the column's entry `r`. -/
theorem colBroadcast_apply {R C : Nat} {α : Type} (hc : (⟨2, ![R, 1]⟩ : Shape).ShapeCasts ⟨2, ![R, 1]⟩)
    (hb : (⟨2, ![R, 1]⟩ : Shape).Broadcasts ⟨2, ![R, C]⟩) (x : (⟨2, ![R, 1]⟩ : Shape).Idx → α) (r : Fin R) (q : Fin C) :
    broadcastTo ⟨2, ![R, C]⟩ (shapeCast ⟨2, ![R, 1]⟩ x hc) hb (ix2 r q) = x (ix2 r 0) := by
  rw [shapeCast_self]
  refine broadcastTo_apply x hb (ix2 r q) (ix2 r 0) fun ax => ?_
  match ax with
  | ⟨0, _⟩ =>
    show (r : ℕ) = if R = 1 then 0 else (r : ℕ)
    split
    · have := r.isLt; omega
    · rfl
  | ⟨1, _⟩ => exact (if_pos rfl).symm

/-- The second kernel's payload at row `r` and column `q` of its block: the row's scale times the entry plus the row's shift. -/
theorem pay3_apply (v0 : Vec Ideal S64x1 .f32) (v2 : Vec Ideal S64x1 .f32) (v4 : Vec Ideal S64x4096 .f32)
    (r : Fin 64) (q : Fin 4096) :
    k1_pay1 (F := Ideal) v0 v2 v4 (ix2 r q) = v0 (ix2 r 0) * v4 (ix2 r q) + v2 (ix2 r 0) := by
  unfold k1_pay1
  rw [addf_apply, mulf_apply, colBroadcast_apply, colBroadcast_apply, shapeCast_self]

end Cert.KernelIdeal.KerValue

end
-- ==== Proof.KerOut0.lean ====
/-
  What the first kernel leaves in its output block, read at an index over the extended reals.

  The body stores the perceptron's 16 × 128 values into the whole block, reads columns 0‥63 back, adds the float one and
  stores them again. So entry (n, j) ends at the perceptron's value plus one for j < 64 and at the perceptron's value
  otherwise: a list of two stores, the later one over the left half, read at an index.
-/
import proofs.«141238_g2000705577981603_pallasbulk_1167_2_alg».proof.Proof.Gen.KernelIdeal.Frame
import proofs.«141238_g2000705577981603_pallasbulk_1167_2_alg».proof.Proof.KerPay
import Idealize.ShloMosaic.Lib.Pipeline.Value
import Idealize.ShloMosaic.Lib.Tactic

noncomputable section

namespace Cert.KernelIdeal.KerValue

open Idealize.ShloMosaic Idealize.ShloMosaic.TcCoe Idealize.ShloMosaic.ValueIdx Idealize.ShloMosaic.Tactic Idealize.SL.Sem
open Cert.KernelIdeal Cert.KernelIdeal.Gen Cert.Modulate

theorem hz2 : (![0, 0] : Fin 2 → Nat) = fun _ => 0 := funext fun a => by fin_cases a <;> rfl

/-- Two stores into a 16 × 128 buffer, the earlier over the whole of it and the later over columns 0‥63, read at row `n`
    and column `j`: the later store's value left of column 64, the earlier store's from there on. -/
theorem canon_left_over_whole {Val : EltTy → Type} [∀ e, Nonempty (Val e)]
    (inbL : ∀ a, (![0, 0] : Fin 2 → Nat) a + S16x64.size a ≤ S16x128.size a)
    (inbW : ∀ a, (![0, 0] : Fin 2 → Nat) a + S16x128.size a ≤ S16x128.size a)
    (P2 : S16x64.Idx → Val .f32) (P1 : S16x128.Idx → Val .f32) (n : Fin 16) (j : Fin 128) :
    View.canon [(⟨Rect.unit (s := S16x128) ![0, 0] S16x64.size inbL, P2⟩ : View.Piece Val S16x128 .f32),
        ⟨Rect.unit (s := S16x128) ![0, 0] S16x128.size inbW, P1⟩] (ix2 n j)
      = if h : j.val < 64 then P2 (ix2 n ⟨j.val, h⟩) else P1 (ix2 n j) := by
  by_cases h : j.val < 64
  · rw [dif_pos h]
    have e : (ix2 n j : S16x128.Idx) = (Rect.unit (s := S16x128) ![0, 0] S16x64.size inbL).emb (ix2 n ⟨j.val, h⟩) :=
      funext fun a => Fin.ext (by
        match a with
        | ⟨0, _⟩ => show n.val = 0 + 1 * n.val; omega
        | ⟨1, _⟩ => show j.val = 0 + 1 * j.val; omega)
    rw [e]
    exact View.canon_cons_emb (Rect.unit (s := S16x128) ![0, 0] S16x64.size inbL) P2 _ (ix2 n ⟨j.val, h⟩)
  · rw [dif_neg h, View.canon_cons_of_not_mem _ _ (by
      rw [Rect.mem_set_unit]
      intro hm
      have h1 := (hm 1).2
      have : ((ix2 n j : S16x128.Idx) 1 : Nat) = j.val := rfl
      have : (![0, 0] : Fin 2 → Nat) 1 + S16x64.size 1 = 64 := rfl
      omega), View.canon_unit_zero hz2]

/-- Where a coordinate of the left half sits in the whole block: at itself. -/
theorem left_idx (inbL : ∀ a, (![0, 0] : Fin 2 → Nat) a + S16x64.size a ≤ S16x128.size a) (n : Fin 16) (j : Fin 128) (h : j.val < 64) :
    (Rect.unit (s := S16x128) ![0, 0] S16x64.size inbL).toLoadRect.idx (ix2 n ⟨j.val, h⟩) = (ix2 n j : S16x128.Idx) :=
  funext fun a => Fin.ext (by
    match a with
    | ⟨0, _⟩ => show 0 + 1 * n.val = n.val; omega
    | ⟨1, _⟩ => show 0 + 1 * j.val = j.val; omega)

/-- The modulation row as the first kernel leaves it: output unit `j` of batch entry `n`, the first 64 raised by one. -/
def gbRow (D : S16x512.Idx → EReal) (W1 : S320x512.Idx → EReal) (B1 : S1x320.Idx → EReal) (W2 : S320x320.Idx → EReal)
    (B2 : S1x320.Idx → EReal) (W3 : S128x320.Idx → EReal) (B3 : S1x128.Idx → EReal) (n : Fin 16) (j : Fin 128) : EReal :=
  if j.val < 64 then mlpRow D W1 B1 W2 B2 W3 B3 n j + oneF else mlpRow D W1 B1 W2 B2 W3 B3 n j

/-- What the first kernel's run leaves in its output's staging buffer, at row `n` and column `j`. -/
theorem out0_apply (c : Dev nD) (i : grid0.Coords) (arg1 : Memref sig .tc .vmem S16x512 .f32) (harg1 : arg1.IsWhole) (arg2 : Memref sig .tc .vmem S320x512 .f32) (harg2 : arg2.IsWhole) (arg3 : Memref sig .tc .vmem S1x320 .f32) (harg3 : arg3.IsWhole) (arg4 : Memref sig .tc .vmem S320x320 .f32) (harg4 : arg4.IsWhole) (arg5 : Memref sig .tc .vmem S1x320 .f32) (harg5 : arg5.IsWhole) (arg6 : Memref sig .tc .vmem S128x320 .f32) (harg6 : arg6.IsWhole) (arg7 : Memref sig .tc .vmem S1x128 .f32) (harg7 : arg7.IsWhole) (arg8 : Memref sig .tc .vmem S16x128 .f32) (harg8 : arg8.IsWhole)
    (x0 : Vec Ideal S16x512 .f32) (x1 : Vec Ideal S320x512 .f32) (x2 : Vec Ideal S1x320 .f32) (x3 : Vec Ideal S320x320 .f32) (x4 : Vec Ideal S1x320 .f32) (x5 : Vec Ideal S128x320 .f32) (x6 : Vec Ideal S1x128 .f32) (n : Fin 16) (j : Fin 128) :
    out0_A_7 (F := Ideal) c i arg1 harg1 arg2 harg2 arg3 harg3 arg4 harg4 arg5 harg5 arg6 harg6 arg7 harg7 arg8 harg8 x0 x1 x2 x3 x4 x5 x6 (ix2 n j) = gbRow x0 x1 x2 x3 x4 x5 x6 n j := by
  unfold out0_A_7
  rw [View.read_writes_junk_eq_canon]
  unfold kernelRun0_A
  dsimp only
  sl_unfold_words
  simp only [View.readAt_eq_ld, harg1.read_unread, harg2.read_unread, harg3.read_unread, harg4.read_unread, harg5.read_unread,
    harg6.read_unread, harg7.read_unread, View.ld_unit_zero (S := S16x512) hz2, View.ld_unit_zero (S := S320x512) hz2,
    View.ld_unit_zero (S := S1x320) hz2, View.ld_unit_zero (S := S320x320) hz2, View.ld_unit_zero (S := S128x320) hz2,
    View.ld_unit_zero (S := S1x128) hz2]
  rw [canon_left_over_whole]
  unfold gbRow
  by_cases h : j.val < 64
  · rw [dif_pos h, if_pos h, pay2_apply, View.readCov_eq_canon', View.canon_unit_zero hz2]
    show k0_pay1 (F := Ideal) x0 x1 x2 x3 x4 x5 x6 ((Rect.unit (s := S16x128) ![0, 0] S16x64.size inb_S16x128_S16x64_0_0).toLoadRect.idx (ix2 n ⟨j.val, h⟩)) + oneF = _
    rw [left_idx, pay1_apply]
  · rw [dif_neg h, if_neg h, pay1_apply]

end Cert.KernelIdeal.KerValue

end
-- ==== Proof.KerReg0.lean ====
/-
  The first region's output array over the extended reals.

  The region has one grid point and every window's block is its whole array: each input block is the array as the region
  finds it, and the one write-back leaves in the output array what the body left in the staging buffer — the modulation
  row of the arrays the region entered with.
-/
import proofs.«141238_g2000705577981603_pallasbulk_1167_2_alg».proof.Proof.Gen.KernelIdeal.Frame
import proofs.«141238_g2000705577981603_pallasbulk_1167_2_alg».proof.Proof.KerOut0
import Idealize.ShloMosaic.Lib.Pipeline.Value

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.Modulate

variable (V : (c : Dev nD) → (b : Ref sig .tc) → Buf (Elt Ideal) ((c : Thread nD τ).loc b))

/-! ## Each input block at the region's one point is the whole array -/

theorem iblk0_0 (c : Dev nD) : iblk0 V c 0 t0_0 = V c main_arg1 := by
  unfold iblk0
  have hz' : (fun a => win0_0.index t0_0 a * main_arg1.ty.shape.size a) = fun _ => 0 := funext fun a => by fin_cases a <;> decide
  exact Memref.read_access_unit_zero (Elt Ideal) main_arg1 hz' (fun a => by rw [congrFun hz' a]; simp) (V c main_arg1)
theorem iblk0_1 (c : Dev nD) : iblk0 V c 1 t0_0 = V c main_arg2 := by
  unfold iblk0
  have hz' : (fun a => win0_1.index t0_0 a * main_arg2.ty.shape.size a) = fun _ => 0 := funext fun a => by fin_cases a <;> decide
  exact Memref.read_access_unit_zero (Elt Ideal) main_arg2 hz' (fun a => by rw [congrFun hz' a]; simp) (V c main_arg2)
theorem iblk0_2 (c : Dev nD) : iblk0 V c 2 t0_0 = V c main_v1 := by
  unfold iblk0
  have hz' : (fun a => win0_2.index t0_0 a * main_v1.ty.shape.size a) = fun _ => 0 := funext fun a => by fin_cases a <;> decide
  exact Memref.read_access_unit_zero (Elt Ideal) main_v1 hz' (fun a => by rw [congrFun hz' a]; simp) (V c main_v1)
theorem iblk0_3 (c : Dev nD) : iblk0 V c 3 t0_0 = V c main_arg4 := by
  unfold iblk0
  have hz' : (fun a => win0_3.index t0_0 a * main_arg4.ty.shape.size a) = fun _ => 0 := funext fun a => by fin_cases a <;> decide
  exact Memref.read_access_unit_zero (Elt Ideal) main_arg4 hz' (fun a => by rw [congrFun hz' a]; simp) (V c main_arg4)
theorem iblk0_4 (c : Dev nD) : iblk0 V c 4 t0_0 = V c main_v2 := by
  unfold iblk0
  have hz' : (fun a => win0_4.index t0_0 a * main_v2.ty.shape.size a) = fun _ => 0 := funext fun a => by fin_cases a <;> decide
  exact Memref.read_access_unit_zero (Elt Ideal) main_v2 hz' (fun a => by rw [congrFun hz' a]; simp) (V c main_v2)
theorem iblk0_5 (c : Dev nD) : iblk0 V c 5 t0_0 = V c main_arg6 := by
  unfold iblk0
  have hz' : (fun a => win0_5.index t0_0 a * main_arg6.ty.shape.size a) = fun _ => 0 := funext fun a => by fin_cases a <;> decide
  exact Memref.read_access_unit_zero (Elt Ideal) main_arg6 hz' (fun a => by rw [congrFun hz' a]; simp) (V c main_arg6)
theorem iblk0_6 (c : Dev nD) : iblk0 V c 6 t0_0 = V c main_v3 := by
  unfold iblk0
  have hz' : (fun a => win0_6.index t0_0 a * main_v3.ty.shape.size a) = fun _ => 0 := funext fun a => by fin_cases a <;> decide
  exact Memref.read_access_unit_zero (Elt Ideal) main_v3 hz' (fun a => by rw [congrFun hz' a]; simp) (V c main_v3)

/-! ## The output array -/

/-- The modulation rows of the arrays the region entered with, as contents of its output array. -/
def gbArr (c : Dev nD) : Buf (Elt Ideal) ((c : Thread nD τ).loc main_v4) := fun i =>
  gbRow (V c main_arg1) (V c main_arg2) (V c main_v1) (V c main_arg4) (V c main_v2) (V c main_arg6) (V c main_v3) (i 0) (i 1)

/-- What the body leaves in the output's staging buffer at the one point. -/
theorem outsAt0_eq (c : Dev nD) : outsAt0 V c t0_0 = gbArr V c := by
  funext i
  obtain ⟨n, j, rfl⟩ : ∃ (n : Fin 16) (j : Fin 128), i = ix2 n j := ⟨i 0, i 1, eq_ix2 i⟩
  unfold outsAt0
  refine (out0_apply c (grid0.coords t0_0) (ms0_0 t0_0) (hs0_0 t0_0) (ms0_1 t0_0) (hs0_1 t0_0) (ms0_2 t0_0) (hs0_2 t0_0) (ms0_3 t0_0) (hs0_3 t0_0)
    (ms0_4 t0_0) (hs0_4 t0_0) (ms0_5 t0_0) (hs0_5 t0_0) (ms0_6 t0_0) (hs0_6 t0_0) (ms0_7 t0_0) (hs0_7 t0_0)
    (iblk0 V c 0 t0_0) (iblk0 V c 1 t0_0) (iblk0 V c 2 t0_0) (iblk0 V c 3 t0_0) (iblk0 V c 4 t0_0) (iblk0 V c 5 t0_0) (iblk0 V c 6 t0_0) n j).trans ?_
  rw [iblk0_0 V c, iblk0_1 V c, iblk0_2 V c, iblk0_3 V c, iblk0_4 V c, iblk0_5 V c, iblk0_6 V c]
  rfl

/-- The one write-back writes it: the block at zero offsets of the [16, 128] array is the array. -/
theorem flushed0_eq (c : Dev nD) (t : Fin cfg0.N) (hf : (cfg0.win 7).flush t = true) :
    (dat0 V c).flushed 7 t = ((cfg0.win 7).blk t).view.read (Elt Ideal) (gbArr V c) := by
  obtain rfl : t = t0_0 := fin_N0 t
  show (cfg0.win 7).cut (grid0.coords t0_0) ((dat0 V c).after 7 t0_0) = _
  rw [after0_7, outsAt0_eq]
  have hz' : (fun a => win0_7.index t0_0 a * main_v4.ty.shape.size a) = fun _ => 0 := funext fun a => by fin_cases a <;> decide
  exact (Memref.read_access_unit_zero (Elt Ideal) main_v4 hz' (fun a => by rw [congrFun hz' a]; simp) (gbArr V c)).symm

/-- So the output array ends holding the modulation rows. -/
theorem arrAt0_eq (c : Dev nD) : (dat0 V c).arrAt 7 cfg0.N = gbArr V c :=
  (dat0 V c).arrAt_eq_of_cover 7 (gbArr V c) (flushed0_eq V c) fun i =>
    ⟨t0_0, flush0_7 t0_0, by
      show i ∈ ((View.whole main_v4).slice (win0_7.rect t0_0)).set
      rw [View.set_slice_whole, Rect.mem_set_unit]
      intro a
      have h0 : (i 0 : Nat) < 16 := (i 0).isLt
      have h1 : (i 1 : Nat) < 128 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [show win0_7.index t0_0 0 * win0_7.size 0 = 0 from by decide +kernel, show win0_7.xsize (grid0.coords t0_0) 0 = 16 from by decide +kernel]; omega
      | ⟨1, _⟩ => show win0_7.index t0_0 1 * win0_7.size 1 ≤ (i 1 : Nat) ∧ (i 1 : Nat) < win0_7.index t0_0 1 * win0_7.size 1 + win0_7.xsize (grid0.coords t0_0) 1
                  rw [show win0_7.index t0_0 1 * win0_7.size 1 = 0 from by decide +kernel, show win0_7.xsize (grid0.coords t0_0) 1 = 128 from by decide +kernel]; omega⟩

end Cert.KernelIdeal.KerValue

end
-- ==== Proof.KerReg1.lean ====
/-
  The second region's output array over the extended reals.

  Point `t` of 16 reads rows 128t‥128t+127 of the [2048, 1] modulation column (the first 64 the scales, the last 64 the
  shifts of batch entry `t`) and rows 64t‥64t+63 of the [1024, 4096] input, and writes the same rows of the output:
  each row scaled and shifted by its own pair. The sixteen blocks tile the output, so it ends holding one function of
  the two arrays the region entered with.
-/
import proofs.«141238_g2000705577981603_pallasbulk_1167_2_alg».proof.Proof.Gen.KernelIdeal.Frame
import proofs.«141238_g2000705577981603_pallasbulk_1167_2_alg».proof.Proof.KerPay
import Idealize.ShloMosaic.Lib.Pipeline.Value

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.Modulate

theorem hz2' : (![0, 0] : Fin 2 → Nat) = fun _ => 0 := funext fun a => by fin_cases a <;> rfl

/-! ## The body's output block from its input blocks -/

/-- Row `r`, column `q` of the block the body leaves: the row's scale (row `r` of the column block) times the input entry
    plus the row's shift (row `r + 64` of the column block). -/
theorem out1_apply (x0 : Vec Ideal S128x1 .f32) (x1 : Vec Ideal S64x4096 .f32) (r : Fin 64) (q : Fin 4096)
    (k0 k1 : S128x1.Idx) (h0 : (k0 0).val = r.val) (h0' : (k0 1).val = 0) (h1 : (k1 0).val = r.val + 64) (h1' : (k1 1).val = 0) :
    out1_2 (F := Ideal) x0 x1 (ix2 r q) = x0 k0 * x1 (ix2 r q) + x0 k1 := by
  unfold out1_2
  rw [View.canon_unit_zero hz2', pay3_apply, View.ld_unit_zero (S := S64x4096) hz2']
  show x0 (r1_0.idx (ix2 r 0)) * x1 (ix2 r q) + x0 (r1_1.idx (ix2 r 0)) = _
  have e0 : r1_0.idx (ix2 r 0) = k0 := funext fun a => Fin.ext (by
    match a with
    | ⟨0, _⟩ => show 0 + 1 * r.val = (k0 0).val; omega
    | ⟨1, _⟩ => show 0 + 1 * 0 = (k0 1).val; omega)
  have e1 : r1_1.idx (ix2 r 0) = k1 := funext fun a => Fin.ext (by
    match a with
    | ⟨0, _⟩ => show 64 + 1 * r.val = (k1 0).val; omega
    | ⟨1, _⟩ => show 0 + 1 * 0 = (k1 1).val; omega)
  rw [e0, e1]

variable (V : (c : Dev nD) → (b : Ref sig .tc) → Buf (Elt Ideal) ((c : Thread nD τ).loc b))

/-! ## The windows' blocks, read off the arrays -/

/-- The three index maps over the grid: every window's block index at point `t` is `(t, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The column window's block at point `t` is rows 128t‥128t+127 of the modulation column. -/
theorem iblk1_0_apply (c : Dev nD) (t : Fin cfg1.N) (y : S128x1.Idx) (k : S2048x1.Idx)
    (hk0 : (k 0).val = 128 * t.val + (y 0).val) (hk1 : (k 1).val = (y 1).val) :
    (iblk1 V c 0 t : Vec Ideal S128x1 .f32) y = (V c main_v5 : S2048x1.Idx → EReal) k := by
  obtain ⟨e0, e1, -⟩ := idx1 t
  unfold iblk1
  rw [View.read_apply]
  show V c main_v5 _ = V c main_v5 _
  congr 1
  funext a
  apply Fin.ext
  match a with
  | ⟨0, _⟩ => show win1_0.index t 0 * 128 + 1 * (y 0).val = (k 0).val; rw [e0, hk0]; omega
  | ⟨1, _⟩ => show win1_0.index t 1 * 1 + 1 * (y 1).val = (k 1).val; rw [e1, hk1]; omega

/-- The input window's block at point `t` is rows 64t‥64t+63 of the flattened input. -/
theorem iblk1_1_apply (c : Dev nD) (t : Fin cfg1.N) (y : S64x4096.Idx) (k : S1024x4096.Idx)
    (hk0 : (k 0).val = 64 * t.val + (y 0).val) (hk1 : (k 1).val = (y 1).val) :
    (iblk1 V c 1 t : Vec Ideal S64x4096 .f32) y = (V c main_v0 : S1024x4096.Idx → EReal) k := by
  obtain ⟨-, -, e2, e3, -⟩ := idx1 t
  unfold iblk1
  rw [View.read_apply]
  show V c main_v0 _ = V c main_v0 _
  congr 1
  funext a
  apply Fin.ext
  match a with
  | ⟨0, _⟩ => show win1_1.index t 0 * 64 + 1 * (y 0).val = (k 0).val; rw [e2, hk0]; omega
  | ⟨1, _⟩ => show win1_1.index t 1 * 4096 + 1 * (y 1).val = (k 1).val; rw [e3, hk1]; omega

/-! ## The output array -/

/-- Row `i 0` of the flattened output belongs to batch entry `(i 0) / 64` and channel `(i 0) % 64`; its scale and shift
    sit in the modulation column at rows `128 · entry + channel` and `128 · entry + 64 + channel`. -/
def affAt (G : S2048x1.Idx → EReal) (X : S1024x4096.Idx → EReal) (i : S1024x4096.Idx) : EReal :=
  G (ix2 ⟨128 * ((i 0).val / 64) + (i 0).val % 64, by have := idx2_lt0 i; omega⟩ 0) * X i
    + G (ix2 ⟨128 * ((i 0).val / 64) + 64 + (i 0).val % 64, by have := idx2_lt0 i; omega⟩ 0)

theorem affAt_eq (G : S2048x1.Idx → EReal) (X : S1024x4096.Idx → EReal) (i : S1024x4096.Idx) (k0 k1 : S2048x1.Idx)
    (h0 : (k0 0).val = 128 * ((i 0).val / 64) + (i 0).val % 64) (h0' : (k0 1).val = 0)
    (h1 : (k1 0).val = 128 * ((i 0).val / 64) + 64 + (i 0).val % 64) (h1' : (k1 1).val = 0) :
    affAt G X i = G k0 * X i + G k1 := by
  unfold affAt
  have e0 : (ix2 ⟨128 * ((i 0).val / 64) + (i 0).val % 64, by have := idx2_lt0 i; omega⟩ 0 : S2048x1.Idx) = k0 :=
    funext fun a => Fin.ext (by
      match a with
      | ⟨0, _⟩ => exact h0.symm
      | ⟨1, _⟩ => exact h0'.symm)
  have e1 : (ix2 ⟨128 * ((i 0).val / 64) + 64 + (i 0).val % 64, by have := idx2_lt0 i; omega⟩ 0 : S2048x1.Idx) = k1 :=
    funext fun a => Fin.ext (by
      match a with
      | ⟨0, _⟩ => exact h1.symm
      | ⟨1, _⟩ => exact h1'.symm)
  rw [e0, e1]

/-- The output array's contents: every row of the flattened input scaled and shifted by its own pair. -/
def affArr (c : Dev nD) : Buf (Elt Ideal) ((c : Thread nD τ).loc main_v6) := fun i => affAt (V c main_v5) (V c main_v0) i

/-- What point `t` writes back is block `t` of it. -/
theorem flushed1_eq (c : Dev nD) (t : Fin cfg1.N) :
    (dat1 V c).flushed 2 t = ((cfg1.win 2).blk t).view.read (Elt Ideal) (affArr V c) := by
  have hN : cfg1.N = 16 := N_1
  have ht : t.val < 16 := by have := t.isLt; omega
  obtain ⟨-, -, -, -, e4, e5⟩ := idx1 t
  show (cfg1.win 2).cut (grid1.coords t) ((dat1 V c).after 2 t) = _
  rw [after1_2]
  funext y
  have hy0 : (y 0).val < 64 := (y 0).isLt
  have hy1 : (y 1).val < 4096 := (y 1).isLt
  have e : (cfg1.win 2).xinj (grid1.coords t) y = (ix2 ⟨(y 0).val, hy0⟩ ⟨(y 1).val, hy1⟩ : S64x4096.Idx) :=
    funext fun a => by
      match a with
      | ⟨0, _⟩ => rfl
      | ⟨1, _⟩ => rfl
  rw [View.read_apply]
  show out1_2 (iblk1 V c 0 t) (iblk1 V c 1 t) ((cfg1.win 2).xinj (grid1.coords t) y) = affAt (V c main_v5) (V c main_v0) (((cfg1.win 2).blk t).view.emb y)
  have hi0 : ((((cfg1.win 2).blk t).view.emb y) 0).val = 64 * t.val + (y 0).val := by
    show win1_2.index t 0 * 64 + 1 * (y 0).val = _; rw [e4]; omega
  have hi1 : ((((cfg1.win 2).blk t).view.emb y) 1).val = (y 1).val := by
    show win1_2.index t 1 * 4096 + 1 * (y 1).val = _; rw [e5]; omega
  rw [e]
  refine (out1_apply (iblk1 V c 0 t) (iblk1 V c 1 t) ⟨(y 0).val, hy0⟩ ⟨(y 1).val, hy1⟩
    (ix2 ⟨(y 0).val, by omega⟩ 0) (ix2 ⟨(y 0).val + 64, by omega⟩ 0) rfl rfl rfl rfl).trans ?_
  rw [iblk1_0_apply V c t _ (ix2 ⟨128 * t.val + (y 0).val, by omega⟩ 0) rfl rfl,
    iblk1_0_apply V c t _ (ix2 ⟨128 * t.val + ((y 0).val + 64), by omega⟩ 0) rfl rfl,
    iblk1_1_apply V c t (ix2 ⟨(y 0).val, hy0⟩ ⟨(y 1).val, hy1⟩) (((cfg1.win 2).blk t).view.emb y) hi0 hi1]
  refine (affAt_eq _ _ _ _ _ ?_ rfl ?_ rfl).symm
  · show 128 * t.val + (y 0).val = _; rw [hi0]; omega
  · show 128 * t.val + ((y 0).val + 64) = _; rw [hi0]; omega

/-- An index of the output array is in point `t`'s block iff its row is one of the block's 64. -/
theorem mem_blk1 (t : Fin cfg1.N) (i : S1024x4096.Idx) :
    i ∈ ((cfg1.win 2).blk t).view.set ↔ ∀ a : Fin 2, win1_2.index t a * S64x4096.size a ≤ (i a).val ∧ (i a).val < win1_2.index t a * S64x4096.size a + S64x4096.size a := by
  show i ∈ ((View.whole main_v6).slice (win1_2.rect t)).set ↔ _
  rw [View.set_slice_whole, Rect.mem_set_unit]
  exact Iff.rfl

/-- So the output array ends holding it: row `r` is in the block of point `r / 64`. -/
theorem arrAt1_eq (c : Dev nD) : (dat1 V c).arrAt 2 cfg1.N = affArr V c :=
  (dat1 V c).arrAt_eq_of_cover 2 (affArr V c) (fun t _ => flushed1_eq V c t) fun i => by
    have hN : cfg1.N = 16 := N_1
    have hi0 : (i 0).val < 1024 := idx2_lt0 i
    have hi1 : (i 1).val < 4096 := idx2_lt1 i
    refine ⟨⟨(i 0).val / 64, by omega⟩, flush1_2 _, ?_⟩
    obtain ⟨-, -, -, -, e4, e5⟩ := idx1 ⟨(i 0).val / 64, by omega⟩
    rw [mem_blk1]
    intro a
    match a with
    | ⟨0, _⟩ =>
      show win1_2.index _ 0 * 64 ≤ (i 0).val ∧ (i 0).val < win1_2.index _ 0 * 64 + 64
      rw [e4]; show (i 0).val / 64 * 64 ≤ (i 0).val ∧ (i 0).val < (i 0).val / 64 * 64 + 64; omega
    | ⟨1, _⟩ =>
      show win1_2.index _ 1 * 4096 ≤ (i 1).val ∧ (i 1).val < win1_2.index _ 1 * 4096 + 4096
      rw [e5]; omega

end Cert.KernelIdeal.KerValue

end
-- ==== Proof.KerValue.lean ====
/-
  The value of the kernel program over the extended reals.

  The run's last boundary holds, in the result buffer, the last host reshape of the second region's output array. Read
  back through the boundaries: that array is every row of the flattened input scaled and shifted by its pair from the
  modulation column; the column is the host reshape of the first region's output, the modulation rows of the embedding,
  the weights and the bias rows the host made of the bias vectors; the flattened input is the host reshape of the input.
  Entry (n, c, p, q) of the result is therefore the specification's `out` of the argument arrays.
-/
import proofs.«141238_g2000705577981603_pallasbulk_1167_2_alg».proof.Proof.KerRunW5
import proofs.«141238_g2000705577981603_pallasbulk_1167_2_alg».proof.Proof.KerReg0
import proofs.«141238_g2000705577981603_pallasbulk_1167_2_alg».proof.Proof.KerReg1
import proofs.«141238_g2000705577981603_pallasbulk_1167_2_alg».proof.Proof.Spec
import Idealize.ShloMosaic.Lib.StableHlo.Run

noncomputable section

namespace Cert.KernelIdeal.KerValue

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.Modulate

/-! ## The host reshapes read at an index -/

/-- A vector made a one-row matrix: entry (0, k) is entry k. -/
theorem rowCast_apply {N : Nat} {α : Type} (B : (⟨1, ![N]⟩ : Shape).Idx → α) (h : (⟨1, ![N]⟩ : Shape).ShapeCasts ⟨2, ![1, N]⟩) (k : Fin N) :
    shapeCast ⟨2, ![1, N]⟩ B h (ix2 0 k) = B (ix1 k) := by
  refine shapeCast_apply B h (ix2 0 k) (ix1 k) ?_
  rw [Shape.rowMajor_val_one, Shape.rowMajor_val_two]
  show k.val = 0 * N + k.val
  omega

/-- The [16, 128] modulation rows made a [2048, 1] column: row 128 n + j is entry (n, j). -/
theorem colCast_apply {α : Type} (G : S16x128.Idx → α) (h : S16x128.ShapeCasts S2048x1) (n : Fin 16) (j : Fin 128) (k : S2048x1.Idx)
    (hk0 : (k 0).val = 128 * n.val + j.val) (hk1 : (k 1).val = 0) : shapeCast S2048x1 G h k = G (ix2 n j) := by
  refine shapeCast_apply G h k (ix2 n j) ?_
  rw [Shape.rowMajor_val_two, Shape.rowMajor_val_two]
  show n.val * 128 + j.val = (k 0).val * 1 + (k 1).val
  omega

/-- The [16, 64, 64, 64] input flattened to [1024, 4096]: entry (64 n + c, 64 p + q) is entry (n, c, p, q). -/
theorem flatCast_apply {α : Type} (X : S16x64x64x64.Idx → α) (h : S16x64x64x64.ShapeCasts S1024x4096) (n : Fin 16) (ch p q : Fin 64)
    (k : S1024x4096.Idx) (hk0 : (k 0).val = 64 * n.val + ch.val) (hk1 : (k 1).val = 64 * p.val + q.val) :
    shapeCast S1024x4096 X h k = X (ix4 n ch p q) := by
  refine shapeCast_apply X h k (ix4 n ch p q) ?_
  rw [Shape.rowMajor_val_four, Shape.rowMajor_val_two]
  show ((n.val * 64 + ch.val) * 64 + p.val) * 64 + q.val = (k 0).val * 4096 + (k 1).val
  omega

/-- The [1024, 4096] output given its four axes back: entry (n, c, p, q) is entry (64 n + c, 64 p + q). -/
theorem unflatCast_apply {α : Type} (Y : S1024x4096.Idx → α) (h : S1024x4096.ShapeCasts S16x64x64x64) (n : Fin 16) (ch p q : Fin 64)
    (k : S1024x4096.Idx) (hk0 : (k 0).val = 64 * n.val + ch.val) (hk1 : (k 1).val = 64 * p.val + q.val) :
    shapeCast S16x64x64x64 Y h (ix4 n ch p q) = Y k := by
  refine shapeCast_apply Y h (ix4 n ch p q) k ?_
  rw [Shape.rowMajor_val_four, Shape.rowMajor_val_two]
  show (k 0).val * 4096 + (k 1).val = ((n.val * 64 + ch.val) * 64 + p.val) * 64 + q.val
  omega

/-- The modulation rows over bias rows made of bias vectors are the specification's. -/
theorem gbRow_eq (D : S16x512.Idx → EReal) (W1 : S320x512.Idx → EReal) (B1 : S320.Idx → EReal) (W2 : S320x320.Idx → EReal)
    (B2 : S320.Idx → EReal) (W3 : S128x320.Idx → EReal) (B3 : S128.Idx → EReal)
    (h1 h2 : S320.ShapeCasts S1x320) (h3 : S128.ShapeCasts S1x128) (n : Fin 16) (j : Fin 128) :
    gbRow D W1 (shapeCast S1x320 B1 h1) W2 (shapeCast S1x320 B2 h2) W3 (shapeCast S1x128 B3 h3) n j = gb D W1 B1 W2 B2 W3 B3 n j := by
  unfold gbRow gb lin3 hid2 hid1 mlpRow
  simp only [rowCast_apply]

variable (m : (ℓ : Loc nD τ sig) → Buf (Elt Ideal) ℓ) (ρ : Dev nD → PrngReg)

/-! ## What the first region enters with: the arguments and the host's reshapes of them -/

theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg6 (c : Dev nD) : V1 m ρ c main_arg6 = m ((c : Thread nD τ).loc main_arg6) := by
  show StableHlo.after hostOps0 (W0 m ρ c) (Proc.devRef .tc main_arg6) = _
  after_results
theorem V1_v1 (c : Dev nD) : V1 m ρ c main_v1 = shapeCast S1x320 (m ((c : Thread nD τ).loc main_arg3)) shapeCasts_S320_S1x320 := by
  show StableHlo.after hostOps0 (W0 m ρ c) (Proc.devRef .tc main_v1) = _
  after_results
  rfl
theorem V1_v2 (c : Dev nD) : V1 m ρ c main_v2 = shapeCast S1x320 (m ((c : Thread nD τ).loc main_arg5)) shapeCasts_S320_S1x320 := by
  show StableHlo.after hostOps0 (W0 m ρ c) (Proc.devRef .tc main_v2) = _
  after_results
  rfl
theorem V1_v3 (c : Dev nD) : V1 m ρ c main_v3 = shapeCast S1x128 (m ((c : Thread nD τ).loc main_arg7)) shapeCasts_S128_S1x128 := by
  show StableHlo.after hostOps0 (W0 m ρ c) (Proc.devRef .tc main_v3) = _
  after_results
  rfl
theorem V1_v0 (c : Dev nD) : V1 m ρ c main_v0 = shapeCast S1024x4096 (m ((c : Thread nD τ).loc main_arg0)) shapeCasts_S16x64x64x64_S1024x4096 := by
  show StableHlo.after hostOps0 (W0 m ρ c) (Proc.devRef .tc main_v0) = _
  after_results
  rfl

/-- The first region's output array: the specification's modulation rows of the arguments. -/
theorem W2_v4_apply (c : Dev nD) (n : Fin 16) (j : Fin 128) :
    (W2 m ρ c (Proc.devRef .tc main_v4) : S16x128.Idx → EReal) (ix2 n j)
      = gb (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) n j := by
  rw [show W2 m ρ c (Proc.devRef .tc main_v4) = gbArr (V1 m ρ) c from (W2_arr m ρ c 7).trans (arrAt0_eq (V1 m ρ) c)]
  show gbRow (V1 m ρ c main_arg1) (V1 m ρ c main_arg2) (V1 m ρ c main_v1) (V1 m ρ c main_arg4) (V1 m ρ c main_v2)
    (V1 m ρ c main_arg6) (V1 m ρ c main_v3) n j = _
  rw [V1_arg1, V1_arg2, V1_v1, V1_arg4, V1_v2, V1_arg6, V1_v3]
  exact gbRow_eq _ _ _ _ _ _ _ _ _ _ n j

/-! ## What the second region enters with -/

/-- The modulation column is the host's reshape of the first region's output; -/
theorem V3_v5 (c : Dev nD) : V3 m ρ c main_v5 = shapeCast S2048x1 (W2 m ρ c (Proc.devRef .tc main_v4)) shapeCasts_S16x128_S2048x1 := by
  show StableHlo.after hostOps1 (W2 m ρ c) (Proc.devRef .tc main_v5) = _
  after_results
  rfl

/-- the flattened input is untouched since the host made it. -/
theorem V3_v0 (c : Dev nD) : V3 m ρ c main_v0 = shapeCast S1024x4096 (m ((c : Thread nD τ).loc main_arg0)) shapeCasts_S16x64x64x64_S1024x4096 := by
  show StableHlo.after hostOps1 (W2 m ρ c) (Proc.devRef .tc main_v0) = _
  after_results
  rw [W2_of_ne m ρ c main_v0 (by decide)]
  exact V1_v0 m ρ c

/-! ## The result -/

/-- The result array: every entry the specification's value of the argument arrays. -/
def res (m : (ℓ : Loc nD τ sig) → Buf (Elt Ideal) ℓ) (c : Dev nD) : Buf (Elt Ideal) ((c.tc : Thread nD τ).loc main_v7) :=
  fun i => Cert.Modulate.out (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg0)) (i 0) (i 1) (i 2) (i 3)

/-- The last boundary's contents of the result buffer are it. -/
theorem W5_v7 (c : Dev nD) : W5 m ρ c (Proc.devRef .tc main_v7) = res m c := by
  funext i
  obtain ⟨n, ch, p, q, rfl⟩ : ∃ (n : Fin 16) (ch p q : Fin 64), i = ix4 n ch p q := ⟨i 0, i 1, i 2, i 3, eq_ix4 i⟩
  have hn := n.isLt
  have hc := ch.isLt
  have hp := p.isLt
  have hq := q.isLt
  have e5 : W5 m ρ c (Proc.devRef .tc main_v7)
      = shapeCast S16x64x64x64 (W4 m ρ c (Proc.devRef .tc main_v6)) shapeCasts_S1024x4096_S16x64x64x64 := by
    show StableHlo.after hostOps2 (W4 m ρ c) (Proc.devRef .tc main_v7) = _
    after_results
    rfl
  rw [e5]
  refine (unflatCast_apply _ _ n ch p q (ix2 ⟨64 * n.val + ch.val, by omega⟩ ⟨64 * p.val + q.val, by omega⟩) rfl rfl).trans ?_
  rw [show W4 m ρ c (Proc.devRef .tc main_v6) = affArr (V3 m ρ) c from (W4_arr m ρ c 2).trans (arrAt1_eq (V3 m ρ) c)]
  show affAt (V3 m ρ c main_v5) (V3 m ρ c main_v0) (ix2 ⟨64 * n.val + ch.val, by omega⟩ ⟨64 * p.val + q.val, by omega⟩) = _
  rw [affAt_eq _ _ _ (ix2 ⟨128 * n.val + ch.val, by omega⟩ 0) (ix2 ⟨128 * n.val + (ch.val + 64), by omega⟩ 0)
    (by show 128 * n.val + ch.val = 128 * ((64 * n.val + ch.val) / 64) + (64 * n.val + ch.val) % 64; omega) rfl
    (by show 128 * n.val + (ch.val + 64) = 128 * ((64 * n.val + ch.val) / 64) + 64 + (64 * n.val + ch.val) % 64; omega) rfl]
  rw [V3_v5, V3_v0]
  rw [colCast_apply _ _ n ⟨ch.val, by omega⟩ _ rfl rfl, colCast_apply _ _ n ⟨ch.val + 64, by omega⟩ _ rfl rfl,
    flatCast_apply _ _ n ch p q _ rfl rfl]
  rw [W2_v4_apply, W2_v4_apply]
  rfl

/-- THE RUN of the kernel program over the extended reals: it terminates, nothing faulting, with the result buffer at the
    specification's value of the argument arrays and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W5_v7 m ρ c), (h c).2⟩) (run_w5 m ρ)

end Cert.KernelIdeal.KerValue

end
-- ==== Proof.RefRunCond.lean ====
/-
  The reference program's run with its result named.

  @main is five stretches: host operations, the perceptron's region, host operations, the modulation's region, one
  last reshape. Between two stretches every buffer holds what the fold of the stretches before it gives; a region
  may change only its output array, whose contents after it are a parameter (`outs`). Given a record of each region
  entered from and left at these contents, every weakly fair execution of @main terminates with the result array at
  the last fold's value and the arguments as launched.
-/
import proofs.«141238_g2000705577981603_pallasbulk_1167_2_alg».proof.Proof.Gen.ReferenceIdeal.Regions

noncomputable section

namespace Cert.ReferenceIdeal.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- the launch theorem's implicit arguments are read off this statement, which needs definitions unfolded inside
-- types still containing unknowns
set_option backward.isDefEq.respectTransparency.types false in
/-- The run, given the regions' records: as the conditional frame, with the result array read off the last boundary's
    contents as well — every weakly fair execution of @main terminates, the result `main_v18` ends at what the fold of the
    host operations and the regions' outputs (`outs`) gives it, and the arguments end as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v18) = V5 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_v18) = V5 m outs c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- at launch every buffer holds the memory's contents; what remains of the launch state makes the first rest state
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the result and each argument are read off the last boundary's contents
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c),
        (h (Proc.devRef .tc main_arg6) (Finset.mem_filter.mpr ⟨StableHlo.devRef_mem_tcRefs main_arg6, by decide⟩)).trans (V5_main_arg6 m outs c),
        (h (Proc.devRef .tc main_arg7) (Finset.mem_filter.mpr ⟨StableHlo.devRef_mem_tcRefs main_arg7, by decide⟩)).trans (V5_main_arg7 m outs c)⟩
    · iexact HSI

end Cert.ReferenceIdeal.RefRun

end
-- ==== Proof.RefMlp.lean ====
/-
  Region 0 of the reference program: the three-layer perceptron kernel on one grid point, every window's block
  its whole array. The windows' blocks, what the body leaves in the output window's buffer (the one whole store
  of the payload over the loads of the seven inputs), the body's triple, the pipeline's proof data and the body
  obligation, at any float instance.
-/
import proofs.«141238_g2000705577981603_pallasbulk_1167_2_alg».proof.Proof.Gen.ReferenceIdeal.Launch
import proofs.«141238_g2000705577981603_pallasbulk_1167_2_alg».proof.Proof.Gen.ReferenceIdeal.Skeleton
import proofs.«141238_g2000705577981603_pallasbulk_1167_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.RefMlp

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, for any proof data whose array is
    the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, for any proof data whose array is
    the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, for any proof data whose array is
    the entry contents' and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, for any proof data whose array is
    the entry contents' and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, for any proof data whose array is
    the entry contents' and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, for any proof data whose array is
    the entry contents' and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole buffer -/

abbrev r0_0 : Rect S512x16 := Rect.unit (s := S512x16) ![0, 0] S512x16.size inb_S512x16_S512x16_0_0
abbrev r0_1 : Rect S320x512 := Rect.unit (s := S320x512) ![0, 0] S320x512.size inb_S320x512_S320x512_0_0
abbrev r0_2 : Rect S320x1 := Rect.unit (s := S320x1) ![0, 0] S320x1.size inb_S320x1_S320x1_0_0
abbrev r0_3 : Rect S320x320 := Rect.unit (s := S320x320) ![0, 0] S320x320.size inb_S320x320_S320x320_0_0
abbrev r0_4 : Rect S320x1 := Rect.unit (s := S320x1) ![0, 0] S320x1.size inb_S320x1_S320x1_0_0
abbrev r0_5 : Rect S128x320 := Rect.unit (s := S128x320) ![0, 0] S128x320.size inb_S128x320_S128x320_0_0
abbrev r0_6 : Rect S128x1 := Rect.unit (s := S128x1) ![0, 0] S128x1.size inb_S128x1_S128x1_0_0
abbrev r0_7 : Rect S128x16 := Rect.unit (s := S128x16) ![0, 0] S128x16.size inb_S128x16_S128x16_0_0

/-! ## What the body leaves in the output window's buffer -/

/-- Window 7's staging buffer after the body, from the input windows' blocks: its one store, the payload over the
    loads (the weights of the first layer are the payload's first argument, the transposed embedding its second). -/
def out0_7 (x0 : Vec F S512x16 .f32) (x1 : Vec F S320x512 .f32) (x2 : Vec F S320x1 .f32) (x3 : Vec F S320x320 .f32) (x4 : Vec F S320x1 .f32) (x5 : Vec F S128x320 .f32) (x6 : Vec F S128x1 .f32) : Vec F S128x16 .f32 :=
  View.canon [⟨r0_7, k0_pay1 (View.ld x1 r0_1) (View.ld x0 r0_0) (View.ld x2 r0_2) (View.ld x3 r0_3) (View.ld x4 r0_4) (View.ld x5 r0_5) (View.ld x6 r0_6)⟩]

/-- The one store is of the whole buffer, so it covers it. -/
theorem cover0_7 (p0 : Vec F S128x16 .f32) (y : S128x16.Idx) :
    ∃ pc ∈ ([⟨r0_7, p0⟩] : List (View.Piece (Elt F) S128x16 .f32)), y ∈ pc.1.set :=
  View.cover_of_tiled [⟨r0_7, p0⟩] S128x16.size (by rfl) y

/-! ## The body's triple -/

set_option maxHeartbeats 1000000 in
/-- The kernel body on whole staging memrefs, the inputs' at read contents `xW` and the output's at anything, runs to
    the continuation holding the inputs' as they were and the output's at `out0_7` of the inputs'. The load of the
    output buffer before the store reads a value nothing uses. -/
theorem sound_kernel0 (c : Dev nD) (E : Set ℕ) (i : grid0.Coords) (arg1 : Memref sig .tc .vmem S512x16 .f32) (harg1 : arg1.IsWhole) (arg2 : Memref sig .tc .vmem S320x512 .f32) (harg2 : arg2.IsWhole) (arg3 : Memref sig .tc .vmem S320x1 .f32) (harg3 : arg3.IsWhole) (arg4 : Memref sig .tc .vmem S320x320 .f32) (harg4 : arg4.IsWhole) (arg5 : Memref sig .tc .vmem S320x1 .f32) (harg5 : arg5.IsWhole) (arg6 : Memref sig .tc .vmem S128x320 .f32) (harg6 : arg6.IsWhole) (arg7 : Memref sig .tc .vmem S128x1 .f32) (harg7 : arg7.IsWhole) (arg8 : Memref sig .tc .vmem S128x16 .f32) (harg8 : arg8.IsWhole)
    (x0 : Vec F S512x16 .f32) (x1 : Vec F S320x512 .f32) (x2 : Vec F S320x1 .f32) (x3 : Vec F S320x320 .f32) (x4 : Vec F S320x1 .f32) (x5 : Vec F S128x320 .f32) (x6 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__deg_mlp_kernel i arg1 harg1 arg2 harg2 arg3 harg3 arg4 harg4 arg5 harg5 arg6 harg6 arg7 harg7 arg8 harg8) K := by
  simp only [cc0__deg_mlp_kernel_eq_skeleton]; unfold cc0__deg_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and the output's at `out0_7` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.RefMlp

end
-- ==== Proof.RefAffine.lean ====
/-
  Region 1 of the reference program: the affine map `out = g · x + b` over a [1024, 4096] array, taken in column
  blocks of 1280 on a grid of four points. The fourth block starts at column 3840 and overhangs the array's end:
  only its first 256 columns lie inside, and both its fetch and its write-back are cut there. The scale `g` and
  the shift `b` are [1024, 1] columns, whole blocks fetched once.

  This file gives the region's proof data (what each staging buffer holds after the body at each point), the body's
  triple, the body obligation in its loose form (the two cut windows are stated on the columns inside the array
  only), and, over the extended reals, the value of the output array after the region: entry (r, q) is
  `g r · x (r, q) + b r`.
-/
import proofs.«141238_g2000705577981603_pallasbulk_1167_2_alg».proof.Proof.Gen.ReferenceIdeal.Launch
import proofs.«141238_g2000705577981603_pallasbulk_1167_2_alg».proof.Proof.Gen.ReferenceIdeal.Skeleton
import proofs.«141238_g2000705577981603_pallasbulk_1167_2_alg».proof.Proof.Gen.ReferenceIdeal.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.ReferenceIdeal.RefAffine

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t` as a fetch reads it off the array the region finds: its part inside the array
    (all of it for the two column windows and for the first three blocks of `x`; 256 columns for the fourth). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- `x`'s block at point `t` filled out to the full 1280 columns: the block inside the array, the zero word past
    the array's end (a word nothing reads: the obligation states the cut windows inside the array only). -/
def xfill (c : Dev nD) (t : Fin cfg1.N) : S1024x1280.Idx → Elt F .f32 :=
  win1_2.fill (grid1.coords t) (fun _ => Scalar.ofBits .f32 0#32) (iblk V c 2 t)

/-! ## The proof data -/

/-- The proof data of the region on core `c`: the arrays as the region finds them; after the body at point `t` the
    scale's and the shift's buffers at their blocks, `x`'s at its filled-out block and the output's at the affine
    map of those three; the invariant the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => xfill V c t
    | ⟨3, _⟩ => k1_pay1 (iblk V c 0 t) (xfill V c t) (iblk V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = xfill V c t := by dsimp only [dat1]
theorem after1_3 (c : Dev nD) (t : Fin cfg1.N) :
    (dat1 V c).after 3 t = k1_pay1 (iblk V c 0 t) (xfill V c t) (iblk V c 1 t) := by dsimp only [dat1]

/-! ## What the body finds -/

/-- The scale's buffer holds its block at every point: fetched at the first, and the block index never moves. -/
theorem before1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)
/-- The shift's likewise. -/
theorem before1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)
/-- `x`'s buffer is fetched at every point: its block on the columns inside the array, `d` elsewhere. -/
theorem before1_2 (c : Dev nD) (t : Fin cfg1.N) (d) :
    (dat1 V c).before 2 t d = win1_2.fill (grid1.coords t) d (iblk V c 2 t) := by
  rw [(dat1 V c).before_fetched 2 t (fetch1_2 t)]
  unfold Dat.fetched Dat.blockOf iblk; rw [A_eq1]; try rfl
/-- The output's buffer is written back at every point: the body finds contents nothing names. -/
theorem before1_3 (c : Dev nD) (t : Fin cfg1.N) (d) : (dat1 V c).before 3 t d = d :=
  (dat1 V c).before_out_reset 3 rfl t (by
    by_cases h : t.val = 0
    · exact .inl h
    · exact .inr ⟨h, flush1_3 _⟩) d

/-! ## The body's triple -/

/-- The two rectangles the body's accesses go through: each whole buffer, at offsets zero. -/
abbrev rCol : Rect S1024x1 := Rect.unit (s := S1024x1) ![0, 0] S1024x1.size inb_S1024x1_S1024x1_0_0
abbrev rBlk : Rect S1024x1280 := Rect.unit (s := S1024x1280) ![0, 0] S1024x1280.size inb_S1024x1280_S1024x1280_0_0

theorem zeros2 : (![0, 0] : Fin 2 → Nat) = fun _ => 0 := funext fun a => by fin_cases a <;> rfl

/-- The one store covers the output's buffer. -/
theorem cover_blk (p0 : Vec F S1024x1280 .f32) (y : S1024x1280.Idx) :
    ∃ pc ∈ ([⟨rBlk, p0⟩] : List (View.Piece (Elt F) S1024x1280 .f32)), y ∈ pc.1.set :=
  ⟨_, List.mem_singleton_self _, View.mem_set_unit_zero zeros2 inb_S1024x1280_S1024x1280_0_0 y⟩

set_option maxHeartbeats 1000000 in
/-- The kernel body on whole staging memrefs, the inputs' at read contents `g`, `b`, `x` and the output's at
    anything, runs to the continuation holding the inputs' as they were and the output's at the affine map of them. -/
theorem sound_kernel (c : Dev nD) (E : Set ℕ) (i : grid1.Coords)
    (arg1 : Memref sig .tc .vmem S1024x1 .f32) (harg1 : arg1.IsWhole) (arg2 : Memref sig .tc .vmem S1024x1 .f32) (harg2 : arg2.IsWhole)
    (arg3 : Memref sig .tc .vmem S1024x1280 .f32) (harg3 : arg3.IsWhole) (arg4 : Memref sig .tc .vmem S1024x1280 .f32) (harg4 : arg4.IsWhole)
    (g b : Vec F S1024x1 .f32) (x : Vec F S1024x1280 .f32) (K : PUnit → sProp 𝕄) :
    iprop(owns (c : Thread nD τ) arg1 fullShare g ∗ owns (c : Thread nD τ) arg2 fullShare b ∗ owns (c : Thread nD τ) arg3 fullShare x
        ∗ (∃ d, owns (c : Thread nD τ) arg4 fullShare d)
        ∗ (iprop(owns (c : Thread nD τ) arg1 fullShare g ∗ owns (c : Thread nD τ) arg2 fullShare b ∗ owns (c : Thread nD τ) arg3 fullShare x
              ∗ owns (c : Thread nD τ) arg4 fullShare (k1_pay1 g x b)) -∗ K ⟨⟩))
      ⊢ wp frame (wpE (defs₀ (F := F)) Variants.none c none) E (cc1__affine_kernel i arg1 harg1 arg2 harg2 arg3 harg3 arg4 harg4) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover_blk _)).trans ?_
  refine (View.canon_unit_zero zeros2 _ _).trans ?_
  show k1_pay1 (View.ld (arg1.view.read (Elt F) f0) rCol) (View.ld (arg3.view.read (Elt F) f2) rBlk)
    (View.ld (arg2.view.read (Elt F) f1) rCol) = _
  rw [View.ld_unit_zero (S := S1024x1) zeros2 inb_S1024x1_S1024x1_0_0, View.ld_unit_zero (S := S1024x1) zeros2 inb_S1024x1_S1024x1_0_0,
    View.ld_unit_zero (S := S1024x1280) zeros2 inb_S1024x1280_S1024x1280_0_0]

/-! ## The body obligation -/

/-- The affine map at an index, for any float instance: the product of the broadcast scale with `x`, plus the
    broadcast shift (the two same-shape casts are the identity). -/
theorem pay_apply (g b : Vec F S1024x1 .f32) (x : Vec F S1024x1280 .f32) (j : S1024x1280.Idx) :
    k1_pay1 g x b j = FloatOps.addf (FloatOps.mulf (broadcastTo S1024x1280 g broadcasts_S1024x1_S1024x1280 j) (x j))
      (broadcastTo S1024x1280 b broadcasts_S1024x1_S1024x1280 j) := by
  unfold k1_pay1
  simp only [shapeCast_self]
  rfl

/-- The affine map is taken index by index: two `x` blocks that agree on the columns inside the array give outputs
    that agree there. -/
theorem cut_pay (i : grid1.Coords) (g b : Vec F S1024x1 .f32) (A A' : Vec F S1024x1280 .f32)
    (h : win1_2.cut i A = win1_2.cut i A') : win1_3.cut i (k1_pay1 g A b) = win1_3.cut i (k1_pay1 g A' b) := by
  funext j
  have hj : A (win1_3.xinj i j) = A' (win1_3.xinj i j) := congrFun h j
  show k1_pay1 g A b (win1_3.xinj i j) = k1_pay1 g A' b (win1_3.xinj i j)
  rw [pay_apply, pay_apply, hj]

set_option maxHeartbeats 1000000 in
/-- The library's body obligation in its loose form, from `sound_kernel` at the point's staging buffers: the scale's
    and the shift's buffers arrive holding their blocks, `x`'s its block filled out with some `d` past the array's
    end, the output's anything; the first three leave as they came and the output's holding the affine map of them,
    which on the columns inside the array is the affine map of the zero-filled block — all the two cut windows'
    obligations ask. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel (F := F) c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (iblk V c 0 t) (iblk V c 1 t) (win1_2.fill (grid1.coords t) d2 (iblk V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · rw [after1_0]; iexact H0
  isplitl [H1]; · rw [after1_1]; iexact H1
  isplitl [H2]
  · iexists d2
    rw [after1_2]
    change _ ⊢ owns (c : Thread nD τ) (stage1_2 (cfg1.slots t 2)) fullShare
      (win1_2.fill (grid1.coords t) d2 (win1_2.cut (grid1.coords t) (xfill V c t)))
    rw [show win1_2.cut (grid1.coords t) (xfill V c t) = iblk V c 2 t from win1_2.cut_fill _ _ _]
    try iexact H2
  · iexists (k1_pay1 (iblk V c 0 t) (win1_2.fill (grid1.coords t) d2 (iblk V c 2 t)) (iblk V c 1 t) : Vec F S1024x1280 .f32)
    rw [after1_3]
    change _ ⊢ owns (c : Thread nD τ) (stage1_3 (cfg1.slots t 3)) fullShare
      (win1_3.fill (α := Elt F .f32) (grid1.coords t)
        (k1_pay1 (iblk V c 0 t) (win1_2.fill (grid1.coords t) d2 (iblk V c 2 t)) (iblk V c 1 t) : Vec F S1024x1280 .f32)
        (win1_3.cut (α := Elt F .f32) (grid1.coords t) (k1_pay1 (iblk V c 0 t) (xfill V c t) (iblk V c 1 t) : Vec F S1024x1280 .f32)))
    rw [win1_3.fill_congr_cut (α := Elt F .f32) (grid1.coords t) (cut_pay (grid1.coords t) (iblk V c 0 t) (iblk V c 1 t)
      (win1_2.fill (grid1.coords t) d2 (iblk V c 2 t)) (xfill V c t)
      ((win1_2.cut_fill _ _ _).trans (show win1_2.cut (grid1.coords t) (xfill V c t) = iblk V c 2 t from win1_2.cut_fill _ _ _).symm))]
    try iexact H3

/-! ## The input arrays after the region -/

/-- The three input windows' arrays are never written: after the region they hold what the region found. -/
theorem arr1_in (c : Dev nD) (w : Fin cfg1.W) (hw : w ≠ 3) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, h => exact absurd rfl h
  exact ((dat1 V c).arrAt_in w hin _).trans (A_eq1 V c w)

end Region

end Cert.ReferenceIdeal.RefAffine

end
-- ==== Proof.RefRun.lean ====
/-
  The reference program's two regions as records over the buffer contents between @main's stretches, and its run.

  Region 0 (the perceptron) is entered with every buffer at the fold of the first host stretch over the launch
  memory and leaves its output array at what its one write-back leaves; region 1 (the modulation) is entered at the
  fold of the second stretch over that and leaves its output array at what its four clipped write-backs leave.
  With these two arrays as the regions' outputs the conditional run applies: every weakly fair execution of @main
  terminates, the result array holds the last reshape of region 1's output, and the arguments end as launched.
-/
import proofs.«141238_g2000705577981603_pallasbulk_1167_2_alg».proof.Proof.RefRunCond
import proofs.«141238_g2000705577981603_pallasbulk_1167_2_alg».proof.Proof.RefMlp
import proofs.«141238_g2000705577981603_pallasbulk_1167_2_alg».proof.Proof.RefAffine
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' entry contents and outputs -/

/-- What region 0 finds in the TensorCore's buffers: the first host stretch folded over the launch memory. -/
abbrev E1 : (c : Dev nD) → (b : Ref sig .tc) → Buf (Elt F) ((c : Thread nD τ).loc b) := fun c b => V1 m c b

/-- What region 0 leaves in its output array: its one write-back. -/
def o2 (c : Dev nD) : Buf (Elt F) ((c : Thread nD τ).loc main_v10) := (RefMlp.dat0 (E1 m) c).arrAt 7 cfg0.N

/-- The regions' outputs with only region 0's known: what region 1's entry contents are read through. -/
def outs1 : Outs (F := F) := fun _ r c => Function.update (fun r : Ref sig .tc => m ((c : Thread nD τ).loc r)) main_v10 (o2 m c) r

/-- What region 1 finds: the second host stretch folded over region 0's exit contents. -/
abbrev E3 : (c : Dev nD) → (b : Ref sig .tc) → Buf (Elt F) ((c : Thread nD τ).loc b) := fun c b => V3 m (outs1 m) c b

/-- What region 1 leaves in its output array: its four write-backs, the last one clipped. -/
def o4 (c : Dev nD) : Buf (Elt F) ((c : Thread nD τ).loc main_v17) := (RefAffine.dat1 (E3 m) c).arrAt 3 cfg1.N

/-- The regions' outputs. -/
def outs : Outs (F := F) := fun _ r c =>
  Function.update (Function.update (fun r : Ref sig .tc => m ((c : Thread nD τ).loc r)) main_v10 (o2 m c)) main_v17 (o4 m c) r

theorem outs_2 (c : Dev nD) : outs m 2 main_v10 c = o2 m c := by
  unfold outs; rw [Function.update_of_ne (by decide), Function.update_self]
theorem outs_4 (c : Dev nD) : outs m 4 main_v17 c = o4 m c := by
  unfold outs; rw [Function.update_self]
theorem outs1_2 (c : Dev nD) : outs1 m 2 main_v10 c = o2 m c := by
  unfold outs1; rw [Function.update_self]

/-- Region 1's entry contents do not depend on its own output. -/
theorem V2_outs (c : Dev nD) : V2 m (outs m) c = V2 m (outs1 m) c := by
  unfold V2
  rw [outs_2, outs1_2]
theorem V3_outs (c : Dev nD) : V3 m (outs m) c = V3 m (outs1 m) c := by
  unfold V3
  rw [V2_outs]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => RefMlp.dat0 (E1 m) c
  | ⟨1, _⟩ => fun c => RefAffine.dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its
    `owes`, at nothing. -/
abbrev R (c : Dev nD) : sProp 𝕄 := iprop((∃ r, prngReg c r) ∗ ∃ W, owes (c : Thread nD τ) (0 : CellTallies nD τ sig Unit) W)

/-! ## Region 0's exit contents -/

theorem hF0 (c : Dev nD) (w : Fin cfg0.W) :
    (RefMlp.dat0 (E1 m) c).arrAt w cfg0.N = (fun b : Ref sig .tc => V2 m (outs m) c b) (Pipeline.arrRef spec0 w) :=
  match w with
  | ⟨0, _⟩ => ((RefMlp.dat0 (E1 m) c).arrAt_in 0 rfl _).trans ((RefMlp.A_eq0 (E1 m) c 0).trans (V2_of m (outs m) c main_v1 (by decide)).symm)
  | ⟨1, _⟩ => ((RefMlp.dat0 (E1 m) c).arrAt_in 1 rfl _).trans ((RefMlp.A_eq0 (E1 m) c 1).trans (V2_of m (outs m) c main_arg2 (by decide)).symm)
  | ⟨2, _⟩ => ((RefMlp.dat0 (E1 m) c).arrAt_in 2 rfl _).trans ((RefMlp.A_eq0 (E1 m) c 2).trans (V2_of m (outs m) c main_v2 (by decide)).symm)
  | ⟨3, _⟩ => ((RefMlp.dat0 (E1 m) c).arrAt_in 3 rfl _).trans ((RefMlp.A_eq0 (E1 m) c 3).trans (V2_of m (outs m) c main_arg4 (by decide)).symm)
  | ⟨4, _⟩ => ((RefMlp.dat0 (E1 m) c).arrAt_in 4 rfl _).trans ((RefMlp.A_eq0 (E1 m) c 4).trans (V2_of m (outs m) c main_v3 (by decide)).symm)
  | ⟨5, _⟩ => ((RefMlp.dat0 (E1 m) c).arrAt_in 5 rfl _).trans ((RefMlp.A_eq0 (E1 m) c 5).trans (V2_of m (outs m) c main_arg6 (by decide)).symm)
  | ⟨6, _⟩ => ((RefMlp.dat0 (E1 m) c).arrAt_in 6 rfl _).trans ((RefMlp.A_eq0 (E1 m) c 6).trans (V2_of m (outs m) c main_v9 (by decide)).symm)
  | ⟨7, _⟩ => by
    show o2 m c = Function.update (V1 m c) (Proc.devRef .tc main_v10) (outs m 2 main_v10 c) (Proc.devRef .tc main_v10)
    rw [Function.update_self, outs_2]

theorem hrest0 (c : Dev nD) : ∀ b, b ∉ Finset.univ.image (Pipeline.arrRef spec0) →
    (fun b : Ref sig .tc => V2 m (outs m) c b) b = E1 m c b :=
  fun b hb => V2_of m (outs m) c b fun h =>
    hb (Finset.mem_image.mpr ⟨7, Finset.mem_univ _, (List.mem_singleton.mp h).symm⟩)

/-! ## Region 1's exit contents -/

theorem hF1 (c : Dev nD) (w : Fin cfg1.W) :
    (RefAffine.dat1 (E3 m) c).arrAt w cfg1.N = (fun b : Ref sig .tc => V4 m (outs m) c b) (Pipeline.arrRef spec1 w) :=
  match w with
  | ⟨0, _⟩ => ((RefAffine.dat1 (E3 m) c).arrAt_in 0 rfl _).trans ((RefAffine.A_eq1 (E3 m) c 0).trans
      ((congrFun (V3_outs m c) _).symm.trans (V4_of m (outs m) c main_v13 (by decide)).symm))
  | ⟨1, _⟩ => ((RefAffine.dat1 (E3 m) c).arrAt_in 1 rfl _).trans ((RefAffine.A_eq1 (E3 m) c 1).trans
      ((congrFun (V3_outs m c) _).symm.trans (V4_of m (outs m) c main_v16 (by decide)).symm))
  | ⟨2, _⟩ => ((RefAffine.dat1 (E3 m) c).arrAt_in 2 rfl _).trans ((RefAffine.A_eq1 (E3 m) c 2).trans
      ((congrFun (V3_outs m c) _).symm.trans (V4_of m (outs m) c main_v0 (by decide)).symm))
  | ⟨3, _⟩ => by
    show o4 m c = Function.update (V3 m (outs m) c) (Proc.devRef .tc main_v17) (outs m 4 main_v17 c) (Proc.devRef .tc main_v17)
    rw [Function.update_self, outs_4]

theorem hrest1 (c : Dev nD) : ∀ b, b ∉ Finset.univ.image (Pipeline.arrRef spec1) →
    (fun b : Ref sig .tc => V4 m (outs m) c b) b = E3 m c b :=
  fun b hb => (V4_of m (outs m) c b fun h =>
    hb (Finset.mem_image.mpr ⟨3, Finset.mem_univ _, (List.mem_singleton.mp h).symm⟩)).trans (congrFun (V3_outs m c) _)

/-! ## The regions as records -/

set_option backward.isDefEq.respectTransparency.types false in
/-- Region 0 over the thread state: entered with every unscoped buffer at the first fold, left with them at that
    fold updated by the region's output. Its arrays are split out of the unscoped buffers and put back at the exit
    contents; the generator register goes into the invariant and comes back; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RefMlp.body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the second fold, left with them at that
    fold updated by the region's output; otherwise as region 0's record. Its body obligation is the loose one:
    the clipped windows' buffers are stated on the part inside the array only. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := RefAffine.body_obligation1 (E3 m) c
  hwaits := Pipeline.hwaits_of_owed_zero _ _ _ _ L lv 1 fun _ _ => rfl
  pre c := iprop(StableHlo.held (c : Thread nD τ) (Pipeline.ucRefs τ sig) (V3 m (outs1 m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b : Ref sig .tc => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the reference's @main terminates; the result array holds the last fold's value
    and the arguments end as launched. -/
theorem run_outs : θ_run defs (onTc (τ := τ) (main (F := F))) ⟨m, fun _ => 0, ρ⟩ (fun r => ∀ c : Dev nD,
      r.2.mem ((c.tc : Thread nD τ).loc main_v18) = V5 m (outs m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V3_outs]; exact .rfl) (fun _ => .rfl)

end Cert.ReferenceIdeal.RefRun

end
-- ==== Proof.RefHost.lean ====
/-
  The reference program's host operations, read at an index.

  Before the perceptron's region the host transposes the embedding, turns the first two bias vectors into columns,
  raises the first 64 entries of the last bias by one (a slice, a sum with the splat of one, the other slice, their
  concatenation) and turns the result into a column, and flattens the activations `x` to 1024 rows of 4096 entries
  (row `n·64 + c`, entry `p·64 + q`). Between the regions it takes the perceptron's output `[128, 16]`, transposes
  each half and flattens it to a column of 1024 entries: entry `n·64 + c` of the scale column is output `(c, n)`,
  of the shift column output `(64 + c, n)`. After the second region it folds the 1024 × 4096 result back to
  `[16, 64, 64, 64]`.
-/
import proofs.«141238_g2000705577981603_pallasbulk_1167_2_alg».proof.Proof.Gen.ReferenceIdeal.Regions
import proofs.«141238_g2000705577981603_pallasbulk_1167_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.ReferenceIdeal.RefHost

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (outs : Outs (F := Ideal))

/-- The last bias vector as launched, as a function into the extended reals. -/
abbrev bias3 (c : Dev nD) : S128.Idx → EReal := m ((c : Thread nD τ).loc main_arg7)

/-! ## Before the first region -/

theorem v1_eq (c : Dev nD) : (V1 m c main_v1 : S512x16.Idx → EReal)
    = transpose S512x16 [1, 0] (m ((c : Thread nD τ).loc main_arg1)) transposes_S16x512_S512x16_1_0 := by
  show StableHlo.after hostOps0 (V0 m c) (Proc.devRef .tc main_v1) = _
  after_results

/-- The transposed embedding at `(k, n)` is the embedding at `(n, k)`. -/
theorem v1_at (c : Dev nD) (k : Fin 512) (n : Fin 16) :
    (V1 m c main_v1 : S512x16.Idx → EReal) (ix2 k n) = (m ((c : Thread nD τ).loc main_arg1) : S16x512.Idx → EReal) (ix2 n k) := by
  rw [v1_eq]; exact transpose_ix2_apply _ _ k n

theorem v2_eq (c : Dev nD) : (V1 m c main_v2 : S320x1.Idx → EReal)
    = shapeCast S320x1 (m ((c : Thread nD τ).loc main_arg3)) shapeCasts_S320_S320x1 := by
  show StableHlo.after hostOps0 (V0 m c) (Proc.devRef .tc main_v2) = _
  after_results
  rfl

/-- A vector as a column: entry `(j, 0)` is entry `j`. -/
theorem col_at {a : ℕ} (x : (⟨1, ![a]⟩ : Shape).Idx → EReal) (h : (⟨1, ![a]⟩ : Shape).ShapeCasts ⟨2, ![a, 1]⟩) (j : Fin a) :
    shapeCast ⟨2, ![a, 1]⟩ x h (ix2 j 0) = x (ix1 j) :=
  shapeCast_apply x h _ (ix1 j) (by
    rw [Shape.rowMajor_val_one, Shape.rowMajor_val_two]
    show j.val = j.val * 1 + 0
    omega)

theorem v2_at (c : Dev nD) (j : Fin 320) :
    (V1 m c main_v2 : S320x1.Idx → EReal) (ix2 j 0) = (m ((c : Thread nD τ).loc main_arg3) : S320.Idx → EReal) (ix1 j) := by
  rw [v2_eq]; exact col_at _ _ j

theorem v3_eq (c : Dev nD) : (V1 m c main_v3 : S320x1.Idx → EReal)
    = shapeCast S320x1 (m ((c : Thread nD τ).loc main_arg5)) shapeCasts_S320_S320x1 := by
  show StableHlo.after hostOps0 (V0 m c) (Proc.devRef .tc main_v3) = _
  after_results
  rfl

theorem v3_at (c : Dev nD) (j : Fin 320) :
    (V1 m c main_v3 : S320x1.Idx → EReal) (ix2 j 0) = (m ((c : Thread nD τ).loc main_arg5) : S320.Idx → EReal) (ix1 j) := by
  rw [v3_eq]; exact col_at _ _ j

theorem v9_eq (c : Dev nD) : (V1 m c main_v9 : S128x1.Idx → EReal)
    = shapeCast S128x1
        (concatenate S128 0
          [⟨S64, addf (extractStridedSlice S64 ![0] (m ((c : Thread nD τ).loc main_arg7)) slices_S128_S64_0)
              (broadcastInDim S64 ![] bcast_S_S64 (constant (F := Ideal) S_ .f32 0x3F800000#32))⟩,
            ⟨S64, extractStridedSlice S64 ![64] (m ((c : Thread nD τ).loc main_arg7)) slices_S128_S64_64⟩]
          concatenates_S64_S64_S128_d0)
        shapeCasts_S128_S128x1 := by
  show StableHlo.after hostOps0 (V0 m c) (Proc.devRef .tc main_v9) = _
  after_results
  rfl

/-- The last bias's column: its first 64 entries raised by one, the others as given. -/
theorem v9_at (c : Dev nD) (j : Fin 128) :
    (V1 m c main_v9 : S128x1.Idx → EReal) (ix2 j 0)
      = if j.val < 64 then bias3 m c (ix1 j) + Cert.Modulate.oneF else bias3 m c (ix1 j) := by
  rw [v9_eq, col_at]
  split
  · rename_i hj
    rw [concatenate_pair_apply_left (t := S128) (s₁ := S64) (s₂ := S64) (0 : Fin 1) _ _ concatenates_S64_S64_S128_d0 (ix1 j)
      (rfl : S64.rank = S128.rank) (ix1 (⟨j.val, hj⟩ : Fin 64))
      (fun b => match b with | ⟨0, _⟩ => rfl)]
    show (_ : EReal) + _ = _
    refine congrArg₂ (· + ·) ?_ ?_
    · exact extractStridedSlice_apply ![0] _ slices_S128_S64_0 (ix1 ⟨j.val, hj⟩) (ix1 j)
        (fun a => match a with | ⟨0, _⟩ => by show j.val = 0 + j.val; omega)
    · exact (broadcastInDim_apply _ bcast_S_S64 _ (ix1 ⟨j.val, hj⟩) ix0 (fun a => a.elim0)).trans rfl
  · rename_i hj
    have hj' : j.val - 64 < 64 := by have := j.isLt; omega
    rw [concatenate_pair_apply_right (t := S128) (s₁ := S64) (s₂ := S64) (0 : Fin 1) _ _ concatenates_S64_S64_S128_d0 (ix1 j)
      (rfl : S64.rank = S128.rank) (rfl : S64.rank = S128.rank) (ix1 (⟨j.val - 64, hj'⟩ : Fin 64))
      (fun b hb => match b with | ⟨0, _⟩ => absurd rfl hb)
      (by show (j.val - 64) + 64 = j.val; omega)]
    exact extractStridedSlice_apply ![64] _ slices_S128_S64_64 (ix1 ⟨j.val - 64, hj'⟩) (ix1 j)
        (fun a => match a with | ⟨0, _⟩ => by show j.val = 64 + (j.val - 64); omega)

theorem v0_eq (c : Dev nD) : (V1 m c main_v0 : S1024x4096.Idx → EReal)
    = shapeCast S1024x4096 (m ((c : Thread nD τ).loc main_arg0)) shapeCasts_S16x64x64x64_S1024x4096 := by
  show StableHlo.after hostOps0 (V0 m c) (Proc.devRef .tc main_v0) = _
  after_results
  rfl

/-- The flattened activations: row `n·64 + ch`, entry `p·64 + q` is `x` at `(n, ch, p, q)`. -/
theorem v0_at (c : Dev nD) (n : Fin 16) (ch p q : Fin 64) :
    (V1 m c main_v0 : S1024x4096.Idx → EReal)
        (ix2 (⟨n.val * 64 + ch.val, by omega⟩ : Fin 1024) (⟨p.val * 64 + q.val, by omega⟩ : Fin 4096))
      = (m ((c : Thread nD τ).loc main_arg0) : S16x64x64x64.Idx → EReal) (ix4 n ch p q) := by
  rw [v0_eq]
  refine shapeCast_apply _ _ _ (ix4 n ch p q) ?_
  rw [Shape.rowMajor_val_four, Shape.rowMajor_val_two]
  show ((n.val * 64 + ch.val) * 64 + p.val) * 64 + q.val = (n.val * 64 + ch.val) * 4096 + (p.val * 64 + q.val)
  omega

/-- The arrays the first region only reads reach it as launched. -/
theorem v1_arg2 (c : Dev nD) : V1 m c main_arg2 = m ((c : Thread nD τ).loc main_arg2) := V1_of m c main_arg2 (by decide)
theorem v1_arg4 (c : Dev nD) : V1 m c main_arg4 = m ((c : Thread nD τ).loc main_arg4) := V1_of m c main_arg4 (by decide)
theorem v1_arg6 (c : Dev nD) : V1 m c main_arg6 = m ((c : Thread nD τ).loc main_arg6) := V1_of m c main_arg6 (by decide)

/-! ## Between the regions -/

theorem v13_eq (c : Dev nD) : (V3 m outs c main_v13 : S1024x1.Idx → EReal)
    = shapeCast S1024x1
        (transpose S16x64 [1, 0]
          (extractStridedSlice S64x16 ![0, 0] (outs 2 main_v10 c) slices_S128x16_S64x16_0_0) transposes_S64x16_S16x64_1_0)
        shapeCasts_S16x64_S1024x1 := by
  show StableHlo.after hostOps1 (V2 m outs c) (Proc.devRef .tc main_v13) = _
  after_results
  simp only [V2, Function.update_self]
  rfl

theorem v16_eq (c : Dev nD) : (V3 m outs c main_v16 : S1024x1.Idx → EReal)
    = shapeCast S1024x1
        (transpose S16x64 [1, 0]
          (extractStridedSlice S64x16 ![64, 0] (outs 2 main_v10 c) slices_S128x16_S64x16_64_0) transposes_S64x16_S16x64_1_0)
        shapeCasts_S16x64_S1024x1 := by
  show StableHlo.after hostOps1 (V2 m outs c) (Proc.devRef .tc main_v16) = _
  after_results
  simp only [V2, Function.update_self]
  rfl

/-- A `[16, 64]` array as a column of 1024: entry `n·64 + ch` is entry `(n, ch)`. -/
theorem flat_at (x : S16x64.Idx → EReal) (n : Fin 16) (ch : Fin 64) :
    shapeCast S1024x1 x shapeCasts_S16x64_S1024x1 (ix2 (⟨n.val * 64 + ch.val, by omega⟩ : Fin 1024) 0) = x (ix2 n ch) :=
  shapeCast_apply x _ _ (ix2 n ch) (by
    rw [Shape.rowMajor_val_two, Shape.rowMajor_val_two]
    show n.val * 64 + ch.val = (n.val * 64 + ch.val) * 1 + 0
    omega)

/-- The scale column at `n·64 + ch` is the first region's output at `(ch, n)`. -/
theorem v13_at (c : Dev nD) (n : Fin 16) (ch : Fin 64) :
    (V3 m outs c main_v13 : S1024x1.Idx → EReal) (ix2 (⟨n.val * 64 + ch.val, by omega⟩ : Fin 1024) 0)
      = (outs 2 main_v10 c : S128x16.Idx → EReal) (ix2 (⟨ch.val, by omega⟩ : Fin 128) n) := by
  rw [v13_eq, flat_at, transpose_ix2_apply]
  exact extractStridedSlice_apply ![0, 0] _ slices_S128x16_S64x16_0_0 (ix2 ch n) (ix2 (⟨ch.val, by omega⟩ : Fin 128) n)
    (fun a => match a with
      | ⟨0, _⟩ => by show ch.val = 0 + ch.val; omega
      | ⟨1, _⟩ => by show n.val = 0 + n.val; omega)

/-- The shift column at `n·64 + ch` is the first region's output at `(64 + ch, n)`. -/
theorem v16_at (c : Dev nD) (n : Fin 16) (ch : Fin 64) :
    (V3 m outs c main_v16 : S1024x1.Idx → EReal) (ix2 (⟨n.val * 64 + ch.val, by omega⟩ : Fin 1024) 0)
      = (outs 2 main_v10 c : S128x16.Idx → EReal) (ix2 (⟨ch.val + 64, by omega⟩ : Fin 128) n) := by
  rw [v16_eq, flat_at, transpose_ix2_apply]
  exact extractStridedSlice_apply ![64, 0] _ slices_S128x16_S64x16_64_0 (ix2 ch n) (ix2 (⟨ch.val + 64, by omega⟩ : Fin 128) n)
    (fun a => match a with
      | ⟨0, _⟩ => by show ch.val + 64 = 64 + ch.val; omega
      | ⟨1, _⟩ => by show n.val = 0 + n.val; omega)

/-- The flattened activations reach the second region as the first region found them. -/
theorem v3_v0 (c : Dev nD) : V3 m outs c main_v0 = V1 m c main_v0 :=
  (V3_of m outs c main_v0 (by decide)).trans (V2_of m outs c main_v0 (by decide))

/-! ## After the second region -/

theorem v18_eq (c : Dev nD) : (V5 m outs c main_v18 : S16x64x64x64.Idx → EReal)
    = shapeCast S16x64x64x64 (outs 4 main_v17 c) shapeCasts_S1024x4096_S16x64x64x64 := by
  show StableHlo.after hostOps2 (V4 m outs c) (Proc.devRef .tc main_v18) = _
  after_results
  simp only [V4, Function.update_self]
  rfl

/-- The result at `(n, ch, p, q)` is the second region's output at row `n·64 + ch`, entry `p·64 + q`. -/
theorem v18_at (c : Dev nD) (n : Fin 16) (ch p q : Fin 64) :
    (V5 m outs c main_v18 : S16x64x64x64.Idx → EReal) (ix4 n ch p q)
      = (outs 4 main_v17 c : S1024x4096.Idx → EReal)
          (ix2 (⟨n.val * 64 + ch.val, by omega⟩ : Fin 1024) (⟨p.val * 64 + q.val, by omega⟩ : Fin 4096)) := by
  rw [v18_eq]
  refine shapeCast_apply _ _ _ _ ?_
  show ((⟨2, ![1024, 4096]⟩ : Shape).rowMajor _).val = ((⟨4, ![16, 64, 64, 64]⟩ : Shape).rowMajor _).val
  rw [Shape.rowMajor_val_four, Shape.rowMajor_val_two]
  show (n.val * 64 + ch.val) * 4096 + (p.val * 64 + q.val) = ((n.val * 64 + ch.val) * 64 + p.val) * 64 + q.val
  omega

end Cert.ReferenceIdeal.RefHost

end
-- ==== Proof.SpecLaws.lean ====
/-
  The two layouts of the perceptron against the specification.

  In the column layout the embedding arrives transposed and each bias as a column; in the row layout the embedding
  arrives as given and each bias as a row. Either way every unit is the same weighted sum plus the same bias, so
  both are the specification's layers. Where the last bias already carries the "plus one" of the scale half, the
  sum with it is the finished unit plus one, by associativity of addition.
-/
import proofs.«141238_g2000705577981603_pallasbulk_1167_2_alg».proof.Proof.Spec

noncomputable section

open scoped BigOperators

namespace Cert.Modulate

open Idealize.ShloMosaic Idealize.ShloMosaic.ValueIdx

variable (D : (⟨2, ![16, 512]⟩ : Shape).Idx → EReal) (W1 : (⟨2, ![320, 512]⟩ : Shape).Idx → EReal)
  (B1 : (⟨1, ![320]⟩ : Shape).Idx → EReal) (W2 : (⟨2, ![320, 320]⟩ : Shape).Idx → EReal)
  (B2 : (⟨1, ![320]⟩ : Shape).Idx → EReal) (W3 : (⟨2, ![128, 320]⟩ : Shape).Idx → EReal)
  (B3 : (⟨1, ![128]⟩ : Shape).Idx → EReal)

/-- The row layout with the biases' rows holding the bias vectors is the linear output layer. -/
theorem mlpRow_eq_lin3 (B1r : (⟨2, ![1, 320]⟩ : Shape).Idx → EReal) (B2r : (⟨2, ![1, 320]⟩ : Shape).Idx → EReal)
    (B3r : (⟨2, ![1, 128]⟩ : Shape).Idx → EReal)
    (h1 : ∀ j : Fin 320, B1r (ix2 0 j) = B1 (ix1 j)) (h2 : ∀ j : Fin 320, B2r (ix2 0 j) = B2 (ix1 j))
    (h3 : ∀ j : Fin 128, B3r (ix2 0 j) = B3 (ix1 j)) (n : Fin 16) (j : Fin 128) :
    mlpRow D W1 B1r W2 B2r W3 B3r n j = lin3 D W1 B1 W2 B2 W3 B3 n j := by
  unfold mlpRow lin3 hid2 hid1
  simp only [h1, h2, h3]

/-- The column layout — the embedding transposed, the first two biases as columns, the last bias's column already
    raised by one on its first 64 entries — is the modulation. -/
theorem mlpCol_eq_gb (DT : (⟨2, ![512, 16]⟩ : Shape).Idx → EReal) (B1c : (⟨2, ![320, 1]⟩ : Shape).Idx → EReal)
    (B2c : (⟨2, ![320, 1]⟩ : Shape).Idx → EReal) (B3c : (⟨2, ![128, 1]⟩ : Shape).Idx → EReal)
    (hD : ∀ (k : Fin 512) (n : Fin 16), DT (ix2 k n) = D (ix2 n k))
    (h1 : ∀ j : Fin 320, B1c (ix2 j 0) = B1 (ix1 j)) (h2 : ∀ j : Fin 320, B2c (ix2 j 0) = B2 (ix1 j))
    (h3 : ∀ j : Fin 128, B3c (ix2 j 0) = if j.val < 64 then B3 (ix1 j) + oneF else B3 (ix1 j))
    (j : Fin 128) (n : Fin 16) :
    mlpCol DT W1 B1c W2 B2c W3 B3c j n = gb D W1 B1 W2 B2 W3 B3 n j := by
  unfold mlpCol gb lin3 hid2 hid1
  simp only [hD, h1, h2, h3]
  split
  · exact (dense_add_one _ _ _ _).symm
  · rfl

end Cert.Modulate

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.RefMlpVal.lean ====
/-
  The value region 0 of the reference program leaves in its output array, at the extended reals: the perceptron in
  the column layout. A dense layer is a matrix product into a zero accumulator plus a column of biases broadcast
  along the batch axis; a hidden layer clamps it at zero. The grid has one point whose block is the whole output
  array, so the array after the region is what the body's one store left.
-/
import proofs.«141238_g2000705577981603_pallasbulk_1167_2_alg».proof.Proof.RefMlp
import proofs.«141238_g2000705577981603_pallasbulk_1167_2_alg».proof.Proof.Spec
import proofs.«141238_g2000705577981603_pallasbulk_1167_2_alg».proof.Proof.LibPlainDot
import proofs.«141238_g2000705577981603_pallasbulk_1167_2_alg».proof.Proof.LibLayout
import Idealize.ShloMosaic.Lib.ValueIdx
import Idealize.ShloMosaic.Lib.Pipeline.Value
import Idealize.ShloMosaic.PureOps.Ideal.Laws

set_option maxRecDepth 16384

noncomputable section

namespace Cert.ReferenceIdeal.RefMlp

open Cert.ReferenceIdeal Cert.ReferenceIdeal.Gen
open Idealize.ShloMosaic Idealize.ShloMosaic.ValueIdx Idealize.ShloMosaic.TcCoe
open Idealize.ShloMosaic.Pipeline (Dat Cfg Window)
open scoped BigOperators

/-! ## The payload read at an index -/

/-- Two dense units over the same weights and bias agree when their inputs do. -/
theorem dense_congr {K : ℕ} (w h h' : Fin K → EReal) (b : EReal) (hh : ∀ k, h k = h' k) :
    Cert.Modulate.dense w h b = Cert.Modulate.dense w h' b :=
  congrArg (fun f => Cert.Modulate.dense w f b) (funext hh)

/-- A dense layer in the column layout: the product of the weights `[M, K]` and the inputs `[K, N]` into a zero
    accumulator, plus the bias column `[M, 1]` broadcast along the second axis, read at `(r, c)`. -/
theorem layer_apply {M K N : ℕ} (W : FVec Ideal ⟨2, ![M, K]⟩ .f32) (h : FVec Ideal ⟨2, ![K, N]⟩ .f32)
    (b : FVec Ideal ⟨2, ![M, 1]⟩ .f32) (hsc : (⟨2, ![M, 1]⟩ : Shape).ShapeCasts ⟨2, ![M, 1]⟩)
    (hbc : (⟨2, ![M, 1]⟩ : Shape).Broadcasts ⟨2, ![M, N]⟩) (r : Fin M) (c : Fin N) :
    addf (matmul (DotDims.plain M K N) none W h (constant (F := Ideal) ⟨2, ![M, N]⟩ .f32 0x00000000#32))
        (broadcastTo ⟨2, ![M, N]⟩ (shapeCast ⟨2, ![M, 1]⟩ b hsc) hbc) (ix2 r c)
      = Cert.Modulate.dense (fun k : Fin K => W (ix2 r k)) (fun k => h (ix2 k c)) (b (ix2 r 0)) := by
  unfold Cert.Modulate.dense
  rw [shapeCast_self]
  exact congrArg₂ (· + ·) (Cert.Sage.matmul_plain_zero_apply none W h r c) (Cert.LibLayout.broadcastTo_a1_ab_apply b hbc r c)

/-- The maximum with the splat of the zero word is the clamp at zero. -/
theorem relu_apply {s : Shape} (x : FVec Ideal s .f32) (i : s.Idx) :
    maximumf x (broadcast s (Scalar.ofBits (F := Ideal) .f32 0x00000000#32)) i = Cert.Modulate.relu (x i) := rfl

/-- The kernel's payload at `(j, n)` is the perceptron in the column layout: three dense layers, the first two
    clamped at zero. -/
theorem pay_apply (v0 : Vec Ideal S320x512 .f32) (v1 : Vec Ideal S512x16 .f32) (v4 : Vec Ideal S320x1 .f32)
    (v10 : Vec Ideal S320x320 .f32) (v12 : Vec Ideal S320x1 .f32) (v18 : Vec Ideal S128x320 .f32)
    (v20 : Vec Ideal S128x1 .f32) (j : Fin 128) (n : Fin 16) :
    k0_pay1 (F := Ideal) v0 v1 v4 v10 v12 v18 v20 (ix2 j n) = Cert.Modulate.mlpCol v1 v0 v4 v10 v12 v18 v20 j n := by
  unfold k0_pay1 Cert.Modulate.mlpCol
  refine (layer_apply (M := 128) (K := 320) (N := 16) v18 _ v20 _ _ j n).trans ?_
  refine dense_congr _ _ _ _ fun k => ?_
  refine (relu_apply _ _).trans (congrArg Cert.Modulate.relu ?_)
  refine (layer_apply (M := 320) (K := 320) (N := 16) v10 _ v12 _ _ k n).trans ?_
  refine dense_congr _ _ _ _ fun k' => ?_
  refine (relu_apply _ _).trans (congrArg Cert.Modulate.relu ?_)
  refine (layer_apply (M := 320) (K := 512) (N := 16) v0 _ v4 _ _ k' n).trans ?_
  rw [shapeCast_self]

/-! ## The output array after the region -/

/-- The zero offsets of a whole-buffer access, as a function. -/
theorem z2 : (![0, 0] : Fin 2 → ℕ) = fun _ => 0 := by
  funext a
  match a with
  | ⟨0, _⟩ => rfl
  | ⟨1, _⟩ => rfl

variable {F : FTy → Type} [FloatOps F]

/-- The one store of the whole buffer leaves its payload, and a load of a whole buffer reads its contents: the
    output buffer after the body is the payload of the input blocks. -/
theorem out0_7_eq (x0 : Vec F S512x16 .f32) (x1 : Vec F S320x512 .f32) (x2 : Vec F S320x1 .f32) (x3 : Vec F S320x320 .f32)
    (x4 : Vec F S320x1 .f32) (x5 : Vec F S128x320 .f32) (x6 : Vec F S128x1 .f32) :
    out0_7 x0 x1 x2 x3 x4 x5 x6 = k0_pay1 x1 x0 x2 x3 x4 x5 x6 := by
  unfold out0_7
  refine (View.canon_unit_zero z2 _ _).trans ?_
  rw [View.ld_unit_zero z2, View.ld_unit_zero z2, View.ld_unit_zero z2, View.ld_unit_zero z2, View.ld_unit_zero z2,
    View.ld_unit_zero z2, View.ld_unit_zero z2]

variable (V : (c : Dev nD) → (b : Ref sig .tc) → Buf (Elt F) ((c : Thread nD τ).loc b))

/-- The grid's one point writes window 7's block back: the output array after the region is its entry contents
    overwritten through the block by what the body left. -/
theorem arrAt0_7 (c : Dev nD) :
    (dat0 V c).arrAt 7 cfg0.N
      = ((cfg0.win 7).blk t0_0).view.write (Elt F) ((dat0 V c).A 7) ((dat0 V c).flushed 7 t0_0) Finset.univ := by
  have h := (dat0 V c).arrAt_succ 7 t0_0
  rw [if_pos (flush0_7 _)] at h
  exact h

/-! ## Each window's one block is its whole array -/

/-- Window 0's block at the one point sits in its array at its own coordinates (block index zero on both axes). -/
theorem emb0_0 (x : S512x16.Idx) : ((cfg0.win 0).blk t0_0).view.emb x = x := by
  funext a
  refine Fin.ext ?_
  match a with
  | ⟨0, _⟩ => exact Window.rect_emb_val_of_index_zero win0_0 t0_0 0 rfl x
  | ⟨1, _⟩ => exact Window.rect_emb_val_of_index_zero win0_0 t0_0 1 rfl x
/-- Window 1's block at the one point sits in its array at its own coordinates (block index zero on both axes). -/
theorem emb0_1 (x : S320x512.Idx) : ((cfg0.win 1).blk t0_0).view.emb x = x := by
  funext a
  refine Fin.ext ?_
  match a with
  | ⟨0, _⟩ => exact Window.rect_emb_val_of_index_zero win0_1 t0_0 0 rfl x
  | ⟨1, _⟩ => exact Window.rect_emb_val_of_index_zero win0_1 t0_0 1 rfl x
/-- Window 2's block at the one point sits in its array at its own coordinates (block index zero on both axes). -/
theorem emb0_2 (x : S320x1.Idx) : ((cfg0.win 2).blk t0_0).view.emb x = x := by
  funext a
  refine Fin.ext ?_
  match a with
  | ⟨0, _⟩ => exact Window.rect_emb_val_of_index_zero win0_2 t0_0 0 rfl x
  | ⟨1, _⟩ => exact Window.rect_emb_val_of_index_zero win0_2 t0_0 1 rfl x
/-- Window 3's block at the one point sits in its array at its own coordinates (block index zero on both axes). -/
theorem emb0_3 (x : S320x320.Idx) : ((cfg0.win 3).blk t0_0).view.emb x = x := by
  funext a
  refine Fin.ext ?_
  match a with
  | ⟨0, _⟩ => exact Window.rect_emb_val_of_index_zero win0_3 t0_0 0 rfl x
  | ⟨1, _⟩ => exact Window.rect_emb_val_of_index_zero win0_3 t0_0 1 rfl x
/-- Window 4's block at the one point sits in its array at its own coordinates (block index zero on both axes). -/
theorem emb0_4 (x : S320x1.Idx) : ((cfg0.win 4).blk t0_0).view.emb x = x := by
  funext a
  refine Fin.ext ?_
  match a with
  | ⟨0, _⟩ => exact Window.rect_emb_val_of_index_zero win0_4 t0_0 0 rfl x
  | ⟨1, _⟩ => exact Window.rect_emb_val_of_index_zero win0_4 t0_0 1 rfl x
/-- Window 5's block at the one point sits in its array at its own coordinates (block index zero on both axes). -/
theorem emb0_5 (x : S128x320.Idx) : ((cfg0.win 5).blk t0_0).view.emb x = x := by
  funext a
  refine Fin.ext ?_
  match a with
  | ⟨0, _⟩ => exact Window.rect_emb_val_of_index_zero win0_5 t0_0 0 rfl x
  | ⟨1, _⟩ => exact Window.rect_emb_val_of_index_zero win0_5 t0_0 1 rfl x
/-- Window 6's block at the one point sits in its array at its own coordinates (block index zero on both axes). -/
theorem emb0_6 (x : S128x1.Idx) : ((cfg0.win 6).blk t0_0).view.emb x = x := by
  funext a
  refine Fin.ext ?_
  match a with
  | ⟨0, _⟩ => exact Window.rect_emb_val_of_index_zero win0_6 t0_0 0 rfl x
  | ⟨1, _⟩ => exact Window.rect_emb_val_of_index_zero win0_6 t0_0 1 rfl x
/-- Window 7's block at the one point sits in its array at its own coordinates (block index zero on both axes). -/
theorem emb0_7 (x : S128x16.Idx) : ((cfg0.win 7).blk t0_0).view.emb x = x := by
  funext a
  refine Fin.ext ?_
  match a with
  | ⟨0, _⟩ => exact Window.rect_emb_val_of_index_zero win0_7 t0_0 0 rfl x
  | ⟨1, _⟩ => exact Window.rect_emb_val_of_index_zero win0_7 t0_0 1 rfl x

/-- Input window 0's block at the one point is its array's contents. -/
theorem iblk0_0_eq (c : Dev nD) : iblk0 V c 0 t0_0 = V c main_v1 := by
  funext x
  unfold iblk0
  rw [View.read_apply]
  exact (cast_eq _ _).trans (congrArg _ (emb0_0 x))
/-- Input window 1's block at the one point is its array's contents. -/
theorem iblk0_1_eq (c : Dev nD) : iblk0 V c 1 t0_0 = V c main_arg2 := by
  funext x
  unfold iblk0
  rw [View.read_apply]
  exact (cast_eq _ _).trans (congrArg _ (emb0_1 x))
/-- Input window 2's block at the one point is its array's contents. -/
theorem iblk0_2_eq (c : Dev nD) : iblk0 V c 2 t0_0 = V c main_v2 := by
  funext x
  unfold iblk0
  rw [View.read_apply]
  exact (cast_eq _ _).trans (congrArg _ (emb0_2 x))
/-- Input window 3's block at the one point is its array's contents. -/
theorem iblk0_3_eq (c : Dev nD) : iblk0 V c 3 t0_0 = V c main_arg4 := by
  funext x
  unfold iblk0
  rw [View.read_apply]
  exact (cast_eq _ _).trans (congrArg _ (emb0_3 x))
/-- Input window 4's block at the one point is its array's contents. -/
theorem iblk0_4_eq (c : Dev nD) : iblk0 V c 4 t0_0 = V c main_v3 := by
  funext x
  unfold iblk0
  rw [View.read_apply]
  exact (cast_eq _ _).trans (congrArg _ (emb0_4 x))
/-- Input window 5's block at the one point is its array's contents. -/
theorem iblk0_5_eq (c : Dev nD) : iblk0 V c 5 t0_0 = V c main_arg6 := by
  funext x
  unfold iblk0
  rw [View.read_apply]
  exact (cast_eq _ _).trans (congrArg _ (emb0_5 x))
/-- Input window 6's block at the one point is its array's contents. -/
theorem iblk0_6_eq (c : Dev nD) : iblk0 V c 6 t0_0 = V c main_v9 := by
  funext x
  unfold iblk0
  rw [View.read_apply]
  exact (cast_eq _ _).trans (congrArg _ (emb0_6 x))

/-- THE VALUE of the output array after the region, at the extended reals: unit `j` of the perceptron's last layer
    for batch entry `n`, over the region's seven input arrays as it finds them. -/
theorem arr0_7 (V : (c : Dev nD) → (b : Ref sig .tc) → Buf (Elt Ideal) ((c : Thread nD τ).loc b)) (c : Dev nD) (j : Fin 128) (n : Fin 16) :
    (dat0 (F := Ideal) V c).arrAt 7 cfg0.N (ValueIdx.ix2 j n)
      = Cert.Modulate.mlpCol (V c main_v1) (V c main_arg2) (V c main_v2) (V c main_arg4) (V c main_v3) (V c main_arg6) (V c main_v9) j n := by
  rw [arrAt0_7]
  refine (congrArg _ (emb0_7 (ix2 j n)).symm).trans ?_
  rw [View.write_emb_of_mem _ _ (Finset.mem_univ _)]
  refine (cast_eq _ _).trans ?_
  show out0_7 (iblk0 V c 0 t0_0) (iblk0 V c 1 t0_0) (iblk0 V c 2 t0_0) (iblk0 V c 3 t0_0) (iblk0 V c 4 t0_0) (iblk0 V c 5 t0_0) (iblk0 V c 6 t0_0) (ix2 j n) = _
  rw [out0_7_eq, iblk0_0_eq, iblk0_1_eq, iblk0_2_eq, iblk0_3_eq, iblk0_4_eq, iblk0_5_eq, iblk0_6_eq]
  exact pay_apply _ _ _ _ _ _ _ j n

end Cert.ReferenceIdeal.RefMlp

end
-- ==== Proof.RefAffineVal.lean ====
/-
  Region 1 of the reference program, the value: over the extended reals the output array after the region holds,
  at row `r` and column `q`, the scale of row `r` times the input's entry `(r, q)` plus the shift of row `r`.

  Each of the four points writes back the columns of its block that lie inside the array; what it writes there is
  that block of one whole-array function (the affine map taken index by index), and the four blocks' columns inside
  the array — 0‥1279, 1280‥2559, 2560‥3839, 3840‥4095 — are all of the array's.
-/
import proofs.«141238_g2000705577981603_pallasbulk_1167_2_alg».proof.Proof.RefAffine
import Idealize.ShloMosaic.Lib.Pipeline.Value
import Idealize.ShloMosaic.Lib.ValueIdx

set_option maxRecDepth 16384

noncomputable section

namespace Cert.ReferenceIdeal.RefAffine

open Cert.ReferenceIdeal Cert.ReferenceIdeal.Gen
open Idealize.ShloMosaic Idealize.ShloMosaic.TcCoe
open Idealize.SL Idealize.SL.Sem
open Idealize.ShloMosaic.Pipeline (Dat Cfg Window)

section Value

open Idealize.ShloMosaic.ValueIdx

variable (V : (c : Dev nD) → (b : Ref sig .tc) → Buf (Elt Ideal) ((c : Thread nD τ).loc b))

/-- The affine map at an index over the extended reals: the scale of the index's row times the entry, plus the
    shift of the row (a [1024, 1] column broadcast along the columns reads its row's entry). -/
theorem pay_ideal (g b : Vec Ideal S1024x1 .f32) (x : Vec Ideal S1024x1280 .f32) (j : S1024x1280.Idx) :
    k1_pay1 g x b j = g (ix2 (n0 := 1024) (n1 := 1) (j 0) 0) * x j + b (ix2 (n0 := 1024) (n1 := 1) (j 0) 0) := by
  rw [pay_apply,
    broadcastTo_apply g broadcasts_S1024x1_S1024x1280 j (ix2 (n0 := 1024) (n1 := 1) (j 0) 0)
      (fun a => by match a with | ⟨0, _⟩ => rfl | ⟨1, _⟩ => rfl),
    broadcastTo_apply b broadcasts_S1024x1_S1024x1280 j (ix2 (n0 := 1024) (n1 := 1) (j 0) 0)
      (fun a => by match a with | ⟨0, _⟩ => rfl | ⟨1, _⟩ => rfl)]
  rfl

/-- The scale's block at any point is its whole array (one block, at block index zero), -/
theorem iblk_0 (c : Dev nD) (t : Fin cfg1.N) (k : S1024x1.Idx) : iblk V c 0 t k = V c main_v13 k := by
  show V c main_v13 ((win1_0.rect t).emb k) = V c main_v13 k
  congr 1
  funext a; apply Fin.ext
  exact win1_0.rect_emb_val_of_index_zero t a (by match a with | ⟨0, _⟩ => rfl | ⟨1, _⟩ => rfl) k
/-- and so is the shift's. -/
theorem iblk_1 (c : Dev nD) (t : Fin cfg1.N) (k : S1024x1.Idx) : iblk V c 1 t k = V c main_v16 k := by
  show V c main_v16 ((win1_1.rect t).emb k) = V c main_v16 k
  congr 1
  funext a; apply Fin.ext
  exact win1_1.rect_emb_val_of_index_zero t a (by match a with | ⟨0, _⟩ => rfl | ⟨1, _⟩ => rfl) k

/-- The affine map of whole arrays: entry `(r, q)` is `g r · x (r, q) + b r`. -/
def affine (g b : S1024x1.Idx → EReal) (x : S1024x4096.Idx → EReal) : S1024x4096.Idx → EReal := fun i =>
  g (ix2 (n0 := 1024) (n1 := 1) (i 0) 0) * x i + b (ix2 (n0 := 1024) (n1 := 1) (i 0) 0)

/-- What each point writes back — the columns inside the array of the affine map of the filled-out block — is
    that point's block of the affine map of the whole arrays: the filled-out block cut back is the block, every
    block spans all the rows, and column `p` of block `t` is column `1280 t + p` of the array. -/
theorem flushed_eq (c : Dev nD) (t : Fin cfg1.N) :
    (dat1 V c).flushed 3 t
      = ((cfg1.win 3).blk t).view.read (Elt Ideal) (affine (V c main_v13) (V c main_v16) (V c main_v0)) := by
  show win1_3.cut (grid1.coords t) ((dat1 V c).after 3 t) = _
  rw [after1_3]
  funext y
  show k1_pay1 (iblk V c 0 t) (xfill V c t) (iblk V c 1 t) (win1_3.xinj (grid1.coords t) y)
    = affine (V c main_v13) (V c main_v16) (V c main_v0) ((win1_3.rect t).emb y)
  rw [pay_ideal, iblk_0, iblk_1]
  rw [show xfill V c t (win1_3.xinj (grid1.coords t) y) = iblk V c 2 t y from win1_2.fill_xinj _ _ _ y]
  have e0 : (win1_3.xinj (grid1.coords t) y) 0 = ((win1_3.rect t).emb y) 0 :=
    Fin.ext (win1_3.rect_emb_val_of_index_zero t 0 rfl y).symm
  rw [e0]
  rfl

/-- An index of the array lies in point `t`'s block iff its column is among the block's columns inside the array
    (every row is: the blocks span the rows). -/
theorem mem_blk (t : Fin cfg1.N) (i : S1024x4096.Idx) :
    i ∈ (win1_3.blk t).view.set ↔ win1_3.index t 1 * 1280 ≤ (i 1 : Nat) ∧ (i 1 : Nat) < win1_3.index t 1 * 1280 + win1_3.xsize (grid1.coords t) 1 := by
  show i ∈ ((View.whole main_v17).slice (win1_3.rect t)).set ↔ _
  rw [View.set_slice_whole, Rect.mem_set_unit]
  have h0 : (i 0 : Nat) < 1024 := (i 0).isLt
  have e0 : win1_3.index t 0 * win1_3.size 0 = 0 ∧ win1_3.xsize (grid1.coords t) 0 = 1024 :=
    (by decide +kernel : ∀ t : Fin grid1.N, win1_3.index t 0 * win1_3.size 0 = 0 ∧ win1_3.xsize (grid1.coords t) 0 = 1024) t
  refine ⟨fun h => h 1, fun h a => ?_⟩
  match a with
  | ⟨1, _⟩ => exact h
  | ⟨0, _⟩ =>
    change win1_3.index t 0 * win1_3.size 0 ≤ (i 0 : Nat) ∧ (i 0 : Nat) < win1_3.index t 0 * win1_3.size 0 + win1_3.xsize (grid1.coords t) 0
    rw [e0.1, e0.2]; omega

/-- The four blocks' columns inside the array are 0‥1279, 1280‥2559, 2560‥3839 and 3840‥4095: together the array's. -/
theorem cover3 (i : S1024x4096.Idx) : ∃ t : Fin cfg1.N, (cfg1.win 3).flush t = true ∧ i ∈ ((cfg1.win 3).blk t).view.set := by
  have h : (i 1 : Nat) < 4096 := (i 1).isLt
  by_cases h0 : (i 1 : Nat) < 1280
  · refine ⟨t1_0, flush1_3 _, (mem_blk t1_0 i).mpr ?_⟩
    rw [show win1_3.index t1_0 1 * 1280 = 0 from by decide +kernel, show win1_3.xsize (grid1.coords t1_0) 1 = 1280 from by decide +kernel]
    omega
  by_cases h1 : (i 1 : Nat) < 2560
  · refine ⟨t1_1, flush1_3 _, (mem_blk t1_1 i).mpr ?_⟩
    rw [show win1_3.index t1_1 1 * 1280 = 1280 from by decide +kernel, show win1_3.xsize (grid1.coords t1_1) 1 = 1280 from by decide +kernel]
    omega
  by_cases h2 : (i 1 : Nat) < 3840
  · refine ⟨t1_2, flush1_3 _, (mem_blk t1_2 i).mpr ?_⟩
    rw [show win1_3.index t1_2 1 * 1280 = 2560 from by decide +kernel, show win1_3.xsize (grid1.coords t1_2) 1 = 1280 from by decide +kernel]
    omega
  · refine ⟨t1_3, flush1_3 _, (mem_blk t1_3 i).mpr ?_⟩
    rw [show win1_3.index t1_3 1 * 1280 = 3840 from by decide +kernel, show win1_3.xsize (grid1.coords t1_3) 1 = 256 from by decide +kernel]
    omega

/-- THE VALUE of the output array after the region, the three input arrays named `G` (the scale), `B` (the shift)
    and `X`: entry `(r, q)` is the scale of row `r` times `X`'s entry plus the shift of row `r`. -/
theorem arr1_3 (c : Dev nD) (G B : (⟨2, ![1024, 1]⟩ : Shape).Idx → EReal) (X : (⟨2, ![1024, 4096]⟩ : Shape).Idx → EReal)
    (hG : V c main_v13 = G) (hB : V c main_v16 = B) (hX : V c main_v0 = X) (r : Fin 1024) (q : Fin 4096) :
    (dat1 (F := Ideal) V c).arrAt 3 cfg1.N (ix2 r q) = G (ix2 r 0) * X (ix2 r q) + B (ix2 r 0) := by
  subst hG hB hX
  rw [(dat1 V c).arrAt_eq_of_cover 3 (affine (V c main_v13) (V c main_v16) (V c main_v0)) (fun t _ => flushed_eq V c t) cover3]
  rfl

end Value

end Cert.ReferenceIdeal.RefAffine

end
-- ==== Proof.RefValue.lean ====
/-
  What the reference program computes, index by index.

  The result at `(n, c, p, q)` is the modulation region's output at row `n·64 + c`, entry `p·64 + q`: the scale
  column's entry of that row times the flattened activations' entry plus the shift column's entry. The scale
  column's entry `n·64 + c` is the perceptron region's output at `(c, n)`, the shift column's its output at
  `(64 + c, n)`; that output is the column-layout perceptron of the transposed embedding, the column biases and
  the last bias raised by one on its first half — the specification's modulation. So the result is the
  specification's `out` of the argument arrays.
-/
import proofs.«141238_g2000705577981603_pallasbulk_1167_2_alg».proof.Proof.RefRun
import proofs.«141238_g2000705577981603_pallasbulk_1167_2_alg».proof.Proof.RefHost
import proofs.«141238_g2000705577981603_pallasbulk_1167_2_alg».proof.Proof.SpecLaws
import proofs.«141238_g2000705577981603_pallasbulk_1167_2_alg».proof.Proof.RefMlpVal
import proofs.«141238_g2000705577981603_pallasbulk_1167_2_alg».proof.Proof.RefAffineVal

noncomputable section

namespace Cert.ReferenceIdeal.RefValue

open Cert.ReferenceIdeal Cert.ReferenceIdeal.Gen Cert.ReferenceIdeal.RefRun
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification's result of the argument arrays. -/
def res (c : Dev nD) : Buf (Elt Ideal) ((c.tc : Thread nD τ).loc main_v18) := fun i =>
  Cert.Modulate.out (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg0)) (i 0) (i 1) (i 2) (i 3)

/-- The perceptron region's output at `(j, n)` is the specification's modulation of batch entry `n`, unit `j`. -/
theorem o2_at (c : Dev nD) (j : Fin 128) (n : Fin 16) :
    (o2 m c : S128x16.Idx → EReal) (ix2 j n)
      = Cert.Modulate.gb (m (c.tc.loc main_arg1)) (m (c.tc.loc main_arg2)) (m (c.tc.loc main_arg3)) (m (c.tc.loc main_arg4))
          (m (c.tc.loc main_arg5)) (m (c.tc.loc main_arg6)) (m (c.tc.loc main_arg7)) n j := by
  unfold o2
  rw [RefMlp.arr0_7 (E1 m) c j n]
  show Cert.Modulate.mlpCol (V1 m c main_v1) (V1 m c main_arg2) (V1 m c main_v2) (V1 m c main_arg4) (V1 m c main_v3)
    (V1 m c main_arg6) (V1 m c main_v9) j n = _
  rw [RefHost.v1_arg2, RefHost.v1_arg4, RefHost.v1_arg6]
  exact Cert.Modulate.mlpCol_eq_gb _ _ _ _ _ _ _ _ _ _ _ (RefHost.v1_at m c) (RefHost.v2_at m c) (RefHost.v3_at m c)
    (RefHost.v9_at m c) j n

/-- The last fold's value of the result array is the specification's result. -/
theorem result_eq (c : Dev nD) : V5 m (outs m) c main_v18 = res m c := by
  funext i
  obtain ⟨n, ch, p, q, rfl⟩ : ∃ (n : Fin 16) (ch p q : Fin 64), i = ix4 n ch p q := ⟨i 0, i 1, i 2, i 3, eq_ix4 i⟩
  refine (RefHost.v18_at m (outs m) c n ch p q).trans ?_
  rw [outs_4]
  unfold o4
  rw [RefAffine.arr1_3 (E3 m) c _ _ _ rfl rfl rfl]
  have e13 := RefHost.v13_at m (outs1 m) c n ch
  have e16 := RefHost.v16_at m (outs1 m) c n ch
  have e0 := (congrFun (RefHost.v3_v0 m (outs1 m) c) _).trans (RefHost.v0_at m c n ch p q)
  rw [outs1_2, o2_at] at e13 e16
  exact congrArg₂ (· + ·) (congrArg₂ (· * ·) e13 e0) e16

/-- Every weakly fair execution of the reference terminates with the result at the specification's value and the
    arguments as launched. -/
theorem run : θ_run (defs (F := Ideal)) (onTc (τ := τ) (main (F := Ideal))) ⟨m, fun _ => 0, ρ⟩ (fun r => ∀ c : Dev nD,
      r.2.mem ((c.tc : Thread nD τ).loc main_v18) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m c), (h c).2⟩) (run_outs m ρ)

end Cert.ReferenceIdeal.RefValue

end
-- ==== Proof.lean ====
/-
  Both programs compute one function of the eight argument arrays, read over the extended reals: a three-layer
  perceptron turns each batch entry's embedding into 64 scales (raised by one) and 64 shifts, and every activation
  is scaled and shifted by its channel's pair (Proof/Spec.lean). The kernel computes the perceptron with the
  embedding as given and adds the one after the last layer; the reference computes it transposed and adds the one to
  the last bias beforehand: commutativity of the products and associativity of the sums make them one function,
  with no use of the inputs' finiteness. The kernel streams the activations one batch entry at a time, the
  reference in four column blocks of which the last overhangs the array; either way every entry of the result is
  written once with its own scale and shift.

  The three frames: the kernel's two are its generated frame certificates; the reference's is its run (two regions
  between host stretches) with the result dropped. The idealization rewrote nothing, so there is nothing to preserve.
-/
import proofs.«141238_g2000705577981603_pallasbulk_1167_2_alg».proof.Defs
import proofs.«141238_g2000705577981603_pallasbulk_1167_2_alg».proof.Proof.Gen.Kernel
import proofs.«141238_g2000705577981603_pallasbulk_1167_2_alg».proof.Proof.Gen.Kernel.Frame
import proofs.«141238_g2000705577981603_pallasbulk_1167_2_alg».proof.Proof.Gen.KernelIdeal
import proofs.«141238_g2000705577981603_pallasbulk_1167_2_alg».proof.Proof.Gen.KernelIdeal.Frame
import proofs.«141238_g2000705577981603_pallasbulk_1167_2_alg».proof.Proof.Gen.ReferenceIdeal
import proofs.«141238_g2000705577981603_pallasbulk_1167_2_alg».proof.Proof.Gen.Pre_finite_inputs
import proofs.«141238_g2000705577981603_pallasbulk_1167_2_alg».proof.Proof.KerValue
import proofs.«141238_g2000705577981603_pallasbulk_1167_2_alg».proof.Proof.RefValue

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run (m := m) (ρ := ρ))

/-- The idealization rewrote no operation. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.KernelIdeal.KerValue.res m c, Cert.KernelIdeal.KerValue.run m ρ, ?_⟩
  refine (θ_run Cert.ReferenceIdeal.defs _ _).mono (fun _ h c => ⟨(h c).1.trans ?_, (h c).2⟩)
    (Cert.ReferenceIdeal.RefValue.run (m := m') (ρ := ρ'))
  obtain ⟨h0, h1, h2, h3, h4, h5, h6, h7⟩ := hagree c
  unfold Cert.ReferenceIdeal.RefValue.res Cert.KernelIdeal.KerValue.res
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
